-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x24E69595#32 ((126765058482001 / 1267650600228229401496703205376 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S1000000x128 : Shape := ⟨2, ![1000000, 128]⟩
abbrev S3 : Shape := ⟨1, ![3]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S3 : S_.BroadcastsInDim S3 (![] : Fin 0 → Fin S3.rank)
  reducesTo_S3_S_d0 : S3.ReducesTo [0] S_

variable [Facts]

def fn {F : FTy → Type} [FloatOps F] (main_arg0 : FVec F S64x128 .f32) (main_arg1 : FVec F S1000000x128 .f32) (main_arg2 : FVec F S3 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S64x128 : Shape := ⟨2, ![64, 128]⟩
abbrev S1000000x128 : Shape := ⟨2, ![1000000, 128]⟩
abbrev S3 : Shape := ⟨1, ![3]⟩
abbrev S_ : Shape := ⟨0, ![]⟩
abbrev S64 : Shape := ⟨1, ![64]⟩
abbrev S64x1 : Shape := ⟨2, ![64, 1]⟩
abbrev S1 : Shape := ⟨1, ![1]⟩
abbrev S64x1000000 : Shape := ⟨2, ![64, 1000000]⟩
abbrev S16384x128 : Shape := ⟨2, ![16384, 128]⟩
abbrev S64x16384 : Shape := ⟨2, ![64, 16384]⟩
abbrev S16384 : Shape := ⟨1, ![16384]⟩
abbrev S16384x1 : Shape := ⟨2, ![16384, 1]⟩

abbrev nBuf : Space → Nat
  | .hbm => 33
  | .vmem => 5
  | .smem => 0
  | _ => 0

abbrev bufTy : (tb : Table) → Fin (tcTables nBuf tb) → BufTy
  | .hbm, ⟨0, _⟩ => ⟨S64x128, .f32⟩
  | .hbm, ⟨1, _⟩ => ⟨S1000000x128, .f32⟩
  | .hbm, ⟨2, _⟩ => ⟨S3, .f32⟩
  | .hbm, ⟨3, _⟩ => ⟨S3, .f32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S3, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S3, .f32⟩
  | .hbm, ⟨24, _⟩ => ⟨S3, .f32⟩
  | .hbm, ⟨25, _⟩ => ⟨S3, .f32⟩
  | .hbm, ⟨26, _⟩ => ⟨S_, .f32⟩
  | .hbm, ⟨27, _⟩ => ⟨S_, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x1000000, .f32⟩
  | .local _ .vmem, ⟨0, _⟩ => ⟨S64x128, .f32⟩
  | .local _ .vmem, ⟨1, _⟩ => ⟨S16384x128, .f32⟩
  | .local _ .vmem, ⟨2, _⟩ => ⟨S16384x128, .f32⟩
  | .local _ .vmem, ⟨3, _⟩ => ⟨S64x16384, .f32⟩
  | .local _ .vmem, ⟨4, _⟩ => ⟨S64x16384, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S64x128_S64_d1 : S64x128.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S64x1_S64x128_0_1 : S64x1.BroadcastsInDim S64x128 (![0, 1] : Fin 2 → Fin S64x128.rank)
  bcast_S_S64x128 : S_.BroadcastsInDim S64x128 (![] : Fin 0 → Fin S64x128.rank)
  inb_S16384x128_S16384x128_0_0 : ∀ a, (![0, 0] : Fin 2 → Nat) a + S16384x128.size a ≤ S16384x128.size a
  h_S16384x128 : 0 < S16384x128.numel
  reduces_S16384x128_S16384 : S16384x128.Reduces [1] S16384
  shapeCasts_S16384_S16384x1 : S16384.ShapeCasts S16384x1
  broadcasts_S16384x1_S16384x128 : S16384x1.Broadcasts S16384x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x16384_S64x16384_0_0 : ∀ a, (![0, 0] : Fin 2 → Nat) a + S64x16384.size a ≤ S64x16384.size a
  h_S64x16384 : 0 < S64x16384.numel
  dot_S64x128_S16384x128_S64x16384_1_1_0_0_n_n_wf : DotDims.WF S64x128 S16384x128 S64x16384 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .f32 = 32 ∨ (Rect.block (s := S64x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384x128.size a < S1000000x128.size a
  hwx0_1 : ∀ i : grid0.Coords, EltTy.bits .f32 = 32 ∨ (Rect.unit (s := S1000000x128) (fun a => cc0_transform_1 i a * S16384x128.size a) (fun a => (Pipeline.Clip.of (cc0_transform_1 i a) (S16384x128.size a) (S1000000x128.size a)).extent (S16384x128.size a)) fun a => Pipeline.Clip.inb (Pipeline.Clip.ok_of (hstart0_1 i a))).WholeWords (EltTy.packing .f32)
  hwxs0_1 : ∀ i : grid0.Coords, EltTy.bits .f32 = 32 ∨ (Rect.unit (s := S16384x128) (fun _ => 0) (fun a => (Pipeline.Clip.of (cc0_transform_1 i a) (S16384x128.size a) (S1000000x128.size a)).extent (S16384x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x16384.size a < S64x1000000.size a
  hwx0_2 : ∀ i : grid0.Coords, EltTy.bits .f32 = 32 ∨ (Rect.unit (s := S64x1000000) (fun a => cc0_transform_2 i a * S64x16384.size a) (fun a => (Pipeline.Clip.of (cc0_transform_2 i a) (S64x16384.size a) (S64x1000000.size a)).extent (S64x16384.size a)) fun a => Pipeline.Clip.inb (Pipeline.Clip.ok_of (hstart0_2 i a))).WholeWords (EltTy.packing .f32)
  hwxs0_2 : ∀ i : grid0.Coords, EltTy.bits .f32 = 32 ∨ (Rect.unit (s := S64x16384) (fun _ => 0) (fun a => (Pipeline.Clip.of (cc0_transform_2 i a) (S64x16384.size a) (S64x1000000.size a)).extent (S64x16384.size a)) fun a => (Nat.zero_add _).trans_le (Pipeline.Clip.extent_le (Pipeline.Clip.ok_of (hstart0_2 i a)))).WholeWords (EltTy.packing .f32)

variable [Facts₀]

def dot_S64x128_S16384x128_S64x16384_1_1_0_0_n_n : DotDims S64x128 S16384x128 S64x16384 where
  lhsContracting := [1]
  rhsContracting := [1]
  lhsNonContracting := [0]
  rhsNonContracting := [0]
  lhsBatch := []
  rhsBatch := []
  wf := dot_S64x128_S16384x128_S64x16384_1_1_0_0_n_n_wf

abbrev win0_0 : Pipeline.Window sig grid0 :=
  Pipeline.Window.ofSpec (Memref.whole main_v18) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S16384x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v19) S64x16384.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x128 : Shape := ⟨2, ![64, 128]⟩
abbrev S1000000x128 : Shape := ⟨2, ![1000000, 128]⟩
abbrev S3 : Shape := ⟨1, ![3]⟩
abbrev S_ : Shape := ⟨0, ![]⟩
abbrev S64 : Shape := ⟨1, ![64]⟩
abbrev S64x1 : Shape := ⟨2, ![64, 1]⟩
abbrev S1000000 : Shape := ⟨1, ![1000000]⟩
abbrev S1000000x1 : Shape := ⟨2, ![1000000, 1]⟩
abbrev S64x1000000 : Shape := ⟨2, ![64, 1000000]⟩
abbrev S1 : Shape := ⟨1, ![1]⟩

abbrev nBuf : Space → Nat
  | .hbm => 43
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S1000000x128, .f32⟩
  | .hbm, ⟨2, _⟩ => ⟨S3, .f32⟩
  | .hbm, ⟨3, _⟩ => ⟨S3, .f32⟩
  | .hbm, ⟨4, _⟩ => ⟨S64x128, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x128, .f32⟩
  | .hbm, ⟨13, _⟩ => ⟨S64x128, .f32⟩
  | .hbm, ⟨14, _⟩ => ⟨S1000000x128, .f32⟩
  | .hbm, ⟨15, _⟩ => ⟨S_, .f32⟩
  | .hbm, ⟨16, _⟩ => ⟨S1000000, .f32⟩
  | .hbm, ⟨17, _⟩ => ⟨S1000000x1, .f32⟩
  | .hbm, ⟨18, _⟩ => ⟨S1000000x1, .f32⟩
  | .hbm, ⟨19, _⟩ => ⟨S_, .f32⟩
  | .hbm, ⟨20, _⟩ => ⟨S1000000x1, .f32⟩
  | .hbm, ⟨21, _⟩ => ⟨S1000000x1, .f32⟩
  | .hbm, ⟨22, _⟩ => ⟨S1000000x128, .f32⟩
  | .hbm, ⟨23, _⟩ => ⟨S1000000x128, .f32⟩
  | .hbm, ⟨24, _⟩ => ⟨S64x1000000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S3, .f32⟩
  | .hbm, ⟨31, _⟩ => ⟨S3, .f32⟩
  | .hbm, ⟨32, _⟩ => ⟨S3, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S3, .f32⟩
  | .hbm, ⟨37, _⟩ => ⟨S3, .f32⟩
  | .hbm, ⟨38, _⟩ => ⟨S3, .f32⟩
  | .hbm, ⟨39, _⟩ => ⟨S_, .f32⟩
  | .hbm, ⟨40, _⟩ => ⟨S_, .f32⟩
  | .hbm, ⟨41, _⟩ => ⟨S64x1000000, .f32⟩
  | .hbm, ⟨42, _⟩ => ⟨S64x1000000, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  reducesTo_S64x128_S64_d1 : S64x128.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  reducesTo_S1000000x128_S1000000_d1 : S1000000x128.ReducesTo [1] S1000000
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S_S64x1000000 : S_.BroadcastsInDim S64x1000000 (![] : Fin 0 → Fin S64x1000000.rank)
  dot_S64x128_S1000000x128_S64x1000000_1_1_0_0_n_n_wf : DotDims.WF S64x128 S1000000x128 S64x1000000 [1] [1] [0] [0] [] []

variable [Facts₀]

def dot_S64x128_S1000000x128_S64x1000000_1_1_0_0_n_n : DotDims S64x128 S1000000x128 S64x1000000 where
  lhsContracting := [1]
  rhsContracting := [1]
  lhsNonContracting := [0]
  rhsNonContracting := [0]
  lhsBatch := []
  rhsBatch := []
  wf := dot_S64x128_S1000000x128_S64x1000000_1_1_0_0_n_n_wf

class Facts : Prop extends Facts₀ where

variable [Facts]
-- ==== Proof.KBody.lean ====
/-
  The tile body of the kernel, run once on arbitrary staging buffers, and the frame of the program around it.

  The launch has 62 grid points. At point t the body finds the 64 x 128 block of scaled queries (the same at every
  point), a 16384 x 128 tile of the bank — rows 16384·t onward; the last tile has only 576 rows inside the bank, and
  what the staging buffer holds past them is not determined — and stores a 64 x 16384 tile of scores whose first
  columns, those inside the result, are written back. The body is two whole loads, one pure function of what they
  read (`k0_pay1`) and one whole store: `sound_kernel`. For the frame nothing of the stored tile is needed, so the
  result window is handed to the body at any contents and taken back at any contents, and the two argument
  windows are returned as found.
-/
import proofs.«109332_j17746804867779_2_alg».proof.Proof.Gen.Kernel.Frame
import proofs.«109332_j17746804867779_2_alg».proof.Proof.Gen.Kernel.Skeleton
import Idealize.ShloMosaic.Lib.Pipeline.Frame
import Idealize.ShloMosaic.Lib.Pipeline.Value
import Idealize.ShloMosaic.Lib.Pipeline.Value
import Idealize.ShloMosaic.Lib.Exec.Geometry

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The two zero offsets of every access of the body, as the constant function. -/
theorem offs_zero : (![0, 0] : Fin 2 → Nat) = fun _ => 0 := funext fun a => by fin_cases a <;> rfl

set_option maxHeartbeats 2000000 in
/-- The body on whole staging buffers — the queries' at contents `x0`, the bank tile's at `x1`, the score tile's at
    anything — ends with the first two as they were and the third holding `k0_pay1 x1 x0`: both loads read a whole
    buffer, and the one store overwrites a whole buffer. -/
theorem sound_kernel (c : Dev nD) (E : Set ℕ) (i : grid0.Coords)
    (arg1 : Memref sig .tc .vmem S64x128 .f32) (harg1 : arg1.IsWhole) (arg2 : Memref sig .tc .vmem S16384x128 .f32) (harg2 : arg2.IsWhole)
    (arg3 : Memref sig .tc .vmem S64x16384 .f32) (harg3 : arg3.IsWhole)
    (x0 : Vec F S64x128 .f32) (x1 : Vec F S16384x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x1 x0)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero offs_zero inb_S64x16384_S64x16384_0_0 y⟩),
    View.canon_unit_zero offs_zero, View.readAt_eq_ld, View.readAt_eq_ld, View.ld_unit_zero offs_zero, View.ld_unit_zero offs_zero]

/-! ## The proof data -/

/-- The word a bank tile is filled out with past the bank's end where a definite tile is wanted: zero. -/
def pad : S16384x128.Idx → Elt F .f32 := fun _ => Scalar.ofBits .f32 0#32

/-- The bank tile at point `t`: its rows inside the bank, then `pad`. -/
def xtile (c : Dev nD) (t : Fin cfg0.N) : S16384x128.Idx → Elt F .f32 :=
  win0_1.fill (grid0.coords t) pad (iblk m c 1 t)

/-- The proof data of the launch on core `c`: the arrays as the region finds them; after the body at point `t` the
    query buffer at its block, the bank buffer at `xtile`, the score buffer at the body's function of those two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xtile m c t
    | ⟨2, _⟩ => k0_pay1 (xtile m c t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = xtile m c t := by dsimp only [dats]
theorem after0_2 (c : Dev nD) (t : Fin cfg0.N) : (dats m 0 c).after 2 t = k0_pay1 (xtile m c t) (iblk m c 0 t) := by dsimp only [dats]

/-- The query buffer holds the query block at every point. -/
theorem before0_0 (c : Dev nD) (t : Fin cfg0.N) (d) : (dats m 0 c).before 0 t d = iblk m c 0 t :=
  before0_0_of m (dats m 0 c) (A_eq m c 0) (after0_0 m c) t d

/-- The bank buffer, fetched at every point, holds the tile's rows inside the bank and, past them, whatever it held. -/
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk; rw [A_eq]

/-! ## The body obligation with the result window forgotten -/

/-- The result window (2) is forgotten by the frame: nothing reads what the body leaves in it. -/
def forgets : Fin 3 → Bool := fun w => w.val == 2

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

/-- The body at any point, the result window forgotten: the query buffer holds its block and the bank buffer its
    tile filled out with whatever was there; both come back as found — which on the rows inside the bank is
    `xtile` —, and the result buffer comes back holding something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have hx : win0_1.cut (grid0.coords t) (xtile m c t) = iblk m c 1 t := win0_1.cut_fill _ _ _
    change _ ⊢ owns (c : Thread nD τ) (st0_1 t) fullShare (win0_1.fill (grid0.coords t) d1 (win0_1.cut (grid0.coords t) (xtile m c t)))
    rw [hx]; try iexact H1
  · iexists _; iexact H2

/-- The library's body obligation, the result window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of the program terminates without a fault; the two staged argument arrays end
    unchanged and every other unscoped buffer ends at its region-entry contents. -/
theorem run_frame : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the program runs to the end without a fault and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     (Eq.mp (congrFun (((dats m 0 c).toRForget forgets).ArrAt_in 1 rfl _) _) ((h c).1 1)).trans ((A_eq m c 1).trans (V_main_arg1 m c)),
     ((h c).2 main_arg2 (Pipeline.mem_restRefs_of main_arg2 (by decide) (by decide))).trans (V_main_arg2 m c)⟩) (run_frame m ρ)

end Cert.Kernel.Tile

end
-- ==== Proof.KIBody.lean ====
/-
  The tile body of the kernel, run once on arbitrary staging buffers, and the frame of the program around it.

  The launch has 62 grid points. At point t the body finds the 64 x 128 block of scaled queries (the same at every
  point), a 16384 x 128 tile of the bank — rows 16384·t onward; the last tile has only 576 rows inside the bank, and
  what the staging buffer holds past them is not determined — and stores a 64 x 16384 tile of scores whose first
  columns, those inside the result, are written back. The body is two whole loads, one pure function of what they
  read (`k0_pay1`) and one whole store: `sound_kernel`. For the frame nothing of the stored tile is needed, so the
  result window is handed to the body at any contents and taken back at any contents, and the two argument
  windows are returned as found.
-/
import proofs.«109332_j17746804867779_2_alg».proof.Proof.Gen.KernelIdeal.Frame
import proofs.«109332_j17746804867779_2_alg».proof.Proof.Gen.KernelIdeal.Skeleton
import Idealize.ShloMosaic.Lib.Pipeline.Frame
import Idealize.ShloMosaic.Lib.Pipeline.Value
import Idealize.ShloMosaic.Lib.Pipeline.Value
import Idealize.ShloMosaic.Lib.Exec.Geometry

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's triple -/

/-- The two zero offsets of every access of the body, as the constant function. -/
theorem offs_zero : (![0, 0] : Fin 2 → Nat) = fun _ => 0 := funext fun a => by fin_cases a <;> rfl

set_option maxHeartbeats 2000000 in
/-- The body on whole staging buffers — the queries' at contents `x0`, the bank tile's at `x1`, the score tile's at
    anything — ends with the first two as they were and the third holding `k0_pay1 x1 x0`: both loads read a whole
    buffer, and the one store overwrites a whole buffer. -/
theorem sound_kernel (c : Dev nD) (E : Set ℕ) (i : grid0.Coords)
    (arg1 : Memref sig .tc .vmem S64x128 .f32) (harg1 : arg1.IsWhole) (arg2 : Memref sig .tc .vmem S16384x128 .f32) (harg2 : arg2.IsWhole)
    (arg3 : Memref sig .tc .vmem S64x16384 .f32) (harg3 : arg3.IsWhole)
    (x0 : Vec F S64x128 .f32) (x1 : Vec F S16384x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x1 x0)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero offs_zero inb_S64x16384_S64x16384_0_0 y⟩),
    View.canon_unit_zero offs_zero, View.readAt_eq_ld, View.readAt_eq_ld, View.ld_unit_zero offs_zero, View.ld_unit_zero offs_zero]

/-! ## The proof data -/

/-- The word a bank tile is filled out with past the bank's end where a definite tile is wanted: zero. -/
def pad : S16384x128.Idx → Elt F .f32 := fun _ => Scalar.ofBits .f32 0#32

/-- The bank tile at point `t`: its rows inside the bank, then `pad`. -/
def xtile (c : Dev nD) (t : Fin cfg0.N) : S16384x128.Idx → Elt F .f32 :=
  win0_1.fill (grid0.coords t) pad (iblk m c 1 t)

/-- The proof data of the launch on core `c`: the arrays as the region finds them; after the body at point `t` the
    query buffer at its block, the bank buffer at `xtile`, the score buffer at the body's function of those two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xtile m c t
    | ⟨2, _⟩ => k0_pay1 (xtile m c t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = xtile m c t := by dsimp only [dats]
theorem after0_2 (c : Dev nD) (t : Fin cfg0.N) : (dats m 0 c).after 2 t = k0_pay1 (xtile m c t) (iblk m c 0 t) := by dsimp only [dats]

/-- The query buffer holds the query block at every point. -/
theorem before0_0 (c : Dev nD) (t : Fin cfg0.N) (d) : (dats m 0 c).before 0 t d = iblk m c 0 t :=
  before0_0_of m (dats m 0 c) (A_eq m c 0) (after0_0 m c) t d

/-- The bank buffer, fetched at every point, holds the tile's rows inside the bank and, past them, whatever it held. -/
theorem before0_1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk; rw [A_eq]

/-! ## The body obligation with the result window forgotten -/

/-- The result window (2) is forgotten by the frame: nothing reads what the body leaves in it. -/
def forgets : Fin 3 → Bool := fun w => w.val == 2

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

/-- The body at any point, the result window forgotten: the query buffer holds its block and the bank buffer its
    tile filled out with whatever was there; both come back as found — which on the rows inside the bank is
    `xtile` —, and the result buffer comes back holding something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have hx : win0_1.cut (grid0.coords t) (xtile m c t) = iblk m c 1 t := win0_1.cut_fill _ _ _
    change _ ⊢ owns (c : Thread nD τ) (st0_1 t) fullShare (win0_1.fill (grid0.coords t) d1 (win0_1.cut (grid0.coords t) (xtile m c t)))
    rw [hx]; try iexact H1
  · iexists _; iexact H2

/-- The library's body obligation, the result window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of the program terminates without a fault; the two staged argument arrays end
    unchanged and every other unscoped buffer ends at its region-entry contents. -/
theorem run_frame : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the program runs to the end without a fault and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     (Eq.mp (congrFun (((dats m 0 c).toRForget forgets).ArrAt_in 1 rfl _) _) ((h c).1 1)).trans ((A_eq m c 1).trans (V_main_arg1 m c)),
     ((h c).2 main_arg2 (Pipeline.mem_restRefs_of main_arg2 (by decide) (by decide))).trans (V_main_arg2 m c)⟩) (run_frame m ρ)

end Cert.KernelIdeal.Tile

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Payload.lean ====
/-
  The kernel body's stored value read at an entry.

  For a block of 16384 bank rows v0 (128 columns each) and the 64 prepared query rows v9, the kernel body stores the
  matrix product of v9 with the normalised bank rows: bank row r is multiplied, entry by entry, by the reciprocal
  square root of its sum of squares clamped from below by the named constant "eps_sq". Read at entry (b, r) that is
      Σ_k v9(b, k) · ( v0(r, k) · rsqrt( max( Σ_j v0(r, j)², eps_sq ) ) ).
  The steps: the matrix product into a zero accumulator is the plain contraction over the 128 columns; the lane sum of
  the squares, kept as a column and broadcast back along the row, is read at (r, k) as the sum over row r.
-/
import proofs.«109332_j17746804867779_2_alg».proof.Proof.Gen.KernelIdeal.Skeleton
import proofs.«109332_j17746804867779_2_alg».proof.Proof.LibKeepdims
import proofs.«109332_j17746804867779_2_alg».proof.Proof.LibMatmul
import Idealize.ShloMosaic.PureOps.Ideal.Laws
import Idealize.ShloMosaic.Lib.ValueIdx
import Idealize.ShloMosaic.Lib.Pipeline.Value

noncomputable section

open scoped BigOperators

namespace Cert.KernelIdeal.Payload

open Idealize.ShloMosaic Idealize.ShloMosaic.ValueIdx Cert.KernelIdeal Cert.KernelIdeal.Facts₀

/-- The sum along the 128 columns of a 16384 x 128 array, read at row r: the sum over j of the entry (r, j). -/
theorem laneSum_apply (src : FVec Ideal S16384x128 .f32) (h : S16384x128.Reduces [1] S16384)
    (hφ : FKind.Formats .f32) (hacc : (0x00000000#32 : BitVec 32) = FKind.add.neutral .f32 hφ) (r : Fin 16384) :
    multiReduction (F := Ideal) .add [1] S16384 src 0x00000000#32 h hφ hacc (ix1 r)
      = ∑ j : Fin 128, src (ix2 r j) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

/-- A reciprocal square root taken entry by entry, read at an index: the reciprocal square root of the entry. -/
theorem rsqrt_apply {s : Shape} {φ : FTy} (a : FVec Ideal s φ) (i : s.Idx) : rsqrt a i = Ideal.rsqrt (a i) := rfl

/-- The stored value at entry (b, r): the contraction of query row b with bank row r normalised by the reciprocal
    square root of its clamped sum of squares. -/
theorem pay_apply (v0 : FVec Ideal S16384x128 .f32) (v9 : FVec Ideal S64x128 .f32) (b : Fin 64) (r : Fin 16384) :
    Cert.KernelIdeal.Gen.k0_pay1 (F := Ideal) v0 v9 (ValueIdx.ix2 b r)
      = ∑ k : Fin 128, v9 (ValueIdx.ix2 b k) * (v0 (ValueIdx.ix2 r k) * Ideal.rsqrt (max (∑ j : Fin 128, v0 (ValueIdx.ix2 r j) * v0 (ValueIdx.ix2 r j)) (Named.named (F := Ideal) Cert.KernelIdeal.κ "eps_sq" (φ := .f32) 0x24E69595#32))) := by
  unfold Cert.KernelIdeal.Gen.k0_pay1
  refine (Cert.MatmulAt.matmul_zero_nt_apply dot_S64x128_S16384x128_S64x16384_1_1_0_0_n_n_wf (some .fp32) _ _ b r).trans ?_
  refine Finset.sum_congr rfl fun k _ => ?_
  refine congrArg₂ (· * ·) (congrFun (shapeCast_self v9 _) (ix2 b k)) ?_
  refine (mulf_apply _ _ _).trans ?_
  refine congrArg (v0 (ix2 r k) * ·) ?_
  refine (Cert.Keepdims.broadcastTo_a1_ab_apply _ _ r k).trans ?_
  refine (rsqrt_apply _ _).trans ?_
  refine congrArg Ideal.rsqrt ?_
  refine (maximumf_apply _ _ _).trans ?_
  refine congrArg₂ max ?_ rfl
  refine (Cert.Keepdims.shapeCast_a_a1_apply _ _ r 0).trans ?_
  exact laneSum_apply _ _ _ _ r

end Cert.KernelIdeal.Payload

end
-- ==== Proof.KIValue.lean ====
/-
  What the kernel's result array holds after the run, at the ideal instance.

  At grid point t the body stores k0_pay1 (bank tile) (query block). Entry (b, r) of that tile reads row r of the
  bank tile only (`pay_rows`), so on the columns inside the result — r below the number of bank rows the tile has
  inside the bank — it does not depend on what the staging buffer held past the bank's end. Point t therefore writes
  back its block of ONE whole-array function `G q x` of the scaled queries q and the bank x:
      G q x (b, n) = Σ_k q(b,k) · (x(n,k) · rsqrt (max (Σ_j x(n,j)²) c)),
  with n = 16384·t + r. The 62 blocks (61 of 16384 columns and one of 576) cover the result, so it ends at `G q x`.
-/
import proofs.«109332_j17746804867779_2_alg».proof.Proof.KIBody
import proofs.«109332_j17746804867779_2_alg».proof.Proof.Payload
import Idealize.ShloMosaic.Lib.ValueIdx

set_option maxRecDepth 16384

noncomputable section

open scoped BigOperators

namespace Cert.KernelIdeal.TileValue

open Cert.KernelIdeal Cert.KernelIdeal.Gen Cert.KernelIdeal.Tile Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The whole-array function -/

/-- The clamp of a bank row's sum of squares: the kernel's named constant. -/
abbrev clampC : EReal := Named.named (F := Ideal) κ "eps_sq" (φ := .f32) 0x24E69595#32

/-- Entry (b, n) from the scaled queries `q` and the bank `x`. -/
def entry (q : FVec Ideal S64x128 .f32) (x : FVec Ideal S1000000x128 .f32) (b : Fin 64) (n : Fin 1000000) : EReal :=
  ∑ k : Fin 128, q (ix2 b k) * (x (ix2 n k) * Ideal.rsqrt (max (∑ j : Fin 128, x (ix2 n j) * x (ix2 n j)) clampC))

/-- The result array as one function of the scaled queries and the bank. -/
def G (q : FVec Ideal S64x128 .f32) (x : FVec Ideal S1000000x128 .f32) : FVec Ideal S64x1000000 .f32 :=
  fun i => entry q x (i 0) (i 1)

theorem G_ix2 (q : FVec Ideal S64x128 .f32) (x : FVec Ideal S1000000x128 .f32) (b : Fin 64) (n : Fin 1000000) :
    G q x (ix2 b n) = entry q x b n := rfl

/-- An entry of the stored tile reads one row of the bank tile. -/
theorem pay_rows (v v' : FVec Ideal S16384x128 .f32) (q : FVec Ideal S64x128 .f32) (b : Fin 64) (r : Fin 16384)
    (h : ∀ k : Fin 128, v (ix2 r k) = v' (ix2 r k)) : k0_pay1 (F := Ideal) v q (ix2 b r) = k0_pay1 (F := Ideal) v' q (ix2 b r) := by
  rw [pay_apply, pay_apply]; simp only [h]

/-! ## The schedule, decided over the 62 grid points -/

/-- Block indices and cut sizes at every point: queries at block (0,0); bank tile t at row block t, cut to the
    rows inside the bank; score tile t at column block t, cut alike. -/
theorem grid_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) (1 : Fin 2) = 128
    ∧ win0_2.xsize (grid0.coords t) (0 : Fin 2) = 64
    ∧ win0_2.xsize (grid0.coords t) (1 : Fin 2) = win0_1.xsize (grid0.coords t) (0 : Fin 2)
    ∧ t.val * 16384 + win0_1.xsize (grid0.coords t) (0 : Fin 2) ≤ 1000000
    ∧ (t.val < 61 → win0_1.xsize (grid0.coords t) (0 : Fin 2) = 16384)
    ∧ (t.val = 61 → win0_1.xsize (grid0.coords t) (0 : Fin 2) = 576) :=
  (by decide +kernel : ∀ t : Fin grid0.N, _)

/-! ## Block reads -/

/-- The query block at any point is the scaled queries themselves. -/
theorem qblock_at (c : Dev nD) (t : Fin cfg0.N) (b : Fin 64) (k : Fin 128) :
    iblk m c 0 t (ix2 b k) = V m c main_v18 (ix2 b k) := by
  obtain ⟨e0, e1, -⟩ := grid_facts t
  show V m c main_v18 (((cfg0.win 0).blk t).view.emb (ix2 b k)) = V m c main_v18 (ix2 b k)
  refine congrArg (V m c main_v18) ?_
  funext a; apply Fin.ext
  match a with
  | ⟨0, _⟩ => show win0_0.index t (0 : Fin 2) * 64 + 1 * b.val = b.val; omega
  | ⟨1, _⟩ => show win0_0.index t (1 : Fin 2) * 128 + 1 * k.val = k.val; omega

/-- An entry of the staging buffer that the fetch at `t` fills: row below the cut, any column. -/
theorem moved_row (t : Fin cfg0.N) (r : Fin 16384) (k : Fin 128) (hr : r.val < win0_1.xsize (grid0.coords t) (0 : Fin 2)) :
    win0_1.moved (grid0.coords t) (ix2 r k) = true := by
  obtain ⟨-, -, -, -, -, -, x1, -⟩ := grid_facts t
  refine (win0_1.moved_iff _ _).mpr fun a => ?_
  match a with
  | ⟨0, _⟩ => exact hr
  | ⟨1, _⟩ => show k.val < win0_1.xsize (grid0.coords t) (1 : Fin 2); rw [x1]; exact k.isLt

/-- Row r of the bank tile at point t, for r below the cut, is row 16384·t + r of the bank. -/
theorem xtile_at (c : Dev nD) (t : Fin cfg0.N) (r : Fin 16384) (k : Fin 128) (hr : r.val < win0_1.xsize (grid0.coords t) (0 : Fin 2))
    (n : Fin 1000000) (hn : n.val = t.val * 16384 + r.val) : xtile m c t (ix2 r k) = V m c main_arg1 (ix2 n k) := by
  obtain ⟨-, -, e2, e3, -⟩ := grid_facts t
  unfold xtile Window.fill
  rw [dif_pos (moved_row t r k hr)]
  show V m c main_arg1 (((cfg0.win 1).blk t).view.emb _) = V m c main_arg1 (ix2 n k)
  refine congrArg (V m c main_arg1) ?_
  funext a; apply Fin.ext
  match a with
  | ⟨0, _⟩ => show win0_1.index t (0 : Fin 2) * 16384 + 1 * r.val = n.val; omega
  | ⟨1, _⟩ => show win0_1.index t (1 : Fin 2) * 128 + 1 * k.val = k.val; omega

/-- On the columns written back, the stored tile does not depend on what the bank buffer held past the bank's end. -/
theorem cut_agree (c : Dev nD) (t : Fin cfg0.N) (d : S16384x128.Idx → Elt Ideal .f32) :
    win0_2.cut (grid0.coords t) (k0_pay1 (F := Ideal) (win0_1.fill (grid0.coords t) d (iblk m c 1 t)) (iblk m c 0 t))
      = win0_2.cut (grid0.coords t) (k0_pay1 (F := Ideal) (xtile m c t) (iblk m c 0 t)) := by
  obtain ⟨-, -, -, -, -, -, x1, x20, x21, -⟩ := grid_facts t
  funext j
  have h0 : (j 0).val < win0_2.xsize (grid0.coords t) (0 : Fin 2) := (j 0).isLt
  have h1 : (j 1).val < win0_2.xsize (grid0.coords t) (1 : Fin 2) := (j 1).isLt
  rw [x20] at h0; rw [x21] at h1
  have h1' : (j 1).val < 16384 := lt_of_lt_of_le h1 (win0_1.xsize_le (grid0.coords t) (0 : Fin 2))
  have e : win0_2.xinj (grid0.coords t) j = ix2 (⟨(j 0).val, h0⟩ : Fin 64) (⟨(j 1).val, h1'⟩ : Fin 16384) := by
    funext a; match a with | ⟨0, _⟩ => rfl | ⟨1, _⟩ => rfl
  show k0_pay1 (F := Ideal) _ _ (win0_2.xinj (grid0.coords t) j) = k0_pay1 (F := Ideal) _ _ (win0_2.xinj (grid0.coords t) j)
  rw [e]
  refine pay_rows _ _ _ _ _ fun k => ?_
  have hm := moved_row t (⟨(j 1).val, h1'⟩ : Fin 16384) k h1
  unfold xtile Window.fill; rw [dif_pos hm, dif_pos hm]

/-! ## What a point writes back, and the cover -/

/-- What point t writes back is its block of `G` of the scaled queries and the bank. -/
theorem flushed_eq (c : Dev nD) (t : Fin cfg0.N) :
    (dats m 0 c).flushed 2 t = ((cfg0.win 2).blk t).view.read (Elt Ideal) (G (V m c main_v18) (V m c main_arg1)) := by
  show (cfg0.win 2).cut (grid0.coords t) ((dats m 0 c).after 2 t) = _
  rw [after0_2]
  obtain ⟨-, -, -, -, e4, e5, x1, x20, x21, hle, -, -⟩ := grid_facts t
  funext j
  have h0 : (j 0).val < win0_2.xsize (grid0.coords t) (0 : Fin 2) := (j 0).isLt
  have h1 : (j 1).val < win0_2.xsize (grid0.coords t) (1 : Fin 2) := (j 1).isLt
  rw [x20] at h0; rw [x21] at h1
  have h1' : (j 1).val < 16384 := lt_of_lt_of_le h1 (win0_1.xsize_le (grid0.coords t) (0 : Fin 2))
  have hn : t.val * 16384 + (j 1).val < 1000000 := by omega
  have e : win0_2.xinj (grid0.coords t) j = ix2 (⟨(j 0).val, h0⟩ : Fin 64) (⟨(j 1).val, h1'⟩ : Fin 16384) := by
    funext a; match a with | ⟨0, _⟩ => rfl | ⟨1, _⟩ => rfl
  have eo : ((cfg0.win 2).blk t).view.emb j = ix2 (⟨(j 0).val, h0⟩ : Fin 64) (⟨t.val * 16384 + (j 1).val, hn⟩ : Fin 1000000) := by
    funext a; apply Fin.ext
    match a with
    | ⟨0, _⟩ => show win0_2.index t (0 : Fin 2) * 64 + 1 * (j 0).val = (j 0).val; omega
    | ⟨1, _⟩ => show win0_2.index t (1 : Fin 2) * 16384 + 1 * (j 1).val = t.val * 16384 + (j 1).val; omega
  show k0_pay1 (F := Ideal) (xtile m c t) (iblk m c 0 t) (win0_2.xinj (grid0.coords t) j)
    = G (V m c main_v18) (V m c main_arg1) (((cfg0.win 2).blk t).view.emb j)
  rw [e, eo, G_ix2, pay_apply]
  have hx : ∀ k : Fin 128, xtile m c t (ix2 (⟨(j 1).val, h1'⟩ : Fin 16384) k)
      = V m c main_arg1 (ix2 (⟨t.val * 16384 + (j 1).val, hn⟩ : Fin 1000000) k) := fun k => xtile_at m c t _ k h1 _ rfl
  have hq : ∀ k : Fin 128, iblk m c 0 t (ix2 (⟨(j 0).val, h0⟩ : Fin 64) k) = V m c main_v18 (ix2 (⟨(j 0).val, h0⟩ : Fin 64) k) :=
    fun k => qblock_at m c t _ k
  unfold entry
  simp only [hx, hq]

/-- Every entry of the result lies in the block some point writes back: column n in that of point n / 16384. -/
theorem cover (i : S64x1000000.Idx) : ∃ t : Fin cfg0.N, (cfg0.win 2).flush t = true ∧ i ∈ ((cfg0.win 2).blk t).view.set := by
  have hi0 : (i 0).val < 64 := (i 0).isLt
  have hi1 : (i 1).val < 1000000 := (i 1).isLt
  have hN : cfg0.N = 62 := N_0
  have ht : (i 1).val / 16384 < cfg0.N := by rw [hN]; omega
  refine ⟨⟨(i 1).val / 16384, ht⟩, flush0_2 _, ?_⟩
  obtain ⟨-, -, -, -, e4, e5, -, x20, x21, -, xa, xb⟩ := grid_facts ⟨(i 1).val / 16384, ht⟩
  show i ∈ ((View.whole main_v19).slice (win0_2.rect ⟨(i 1).val / 16384, ht⟩)).set
  rw [View.set_slice_whole, Rect.mem_set_unit]
  intro a
  match a with
  | ⟨0, _⟩ =>
    show win0_2.index ⟨(i 1).val / 16384, ht⟩ (0 : Fin 2) * 64 ≤ (i 0).val
      ∧ (i 0).val < win0_2.index ⟨(i 1).val / 16384, ht⟩ (0 : Fin 2) * 64 + win0_2.xsize (grid0.coords ⟨(i 1).val / 16384, ht⟩) (0 : Fin 2)
    rw [e4, x20]; omega
  | ⟨1, _⟩ =>
    show win0_2.index ⟨(i 1).val / 16384, ht⟩ (1 : Fin 2) * 16384 ≤ (i 1).val
      ∧ (i 1).val < win0_2.index ⟨(i 1).val / 16384, ht⟩ (1 : Fin 2) * 16384 + win0_2.xsize (grid0.coords ⟨(i 1).val / 16384, ht⟩) (1 : Fin 2)
    rw [e5, x21]
    have hv : (⟨(i 1).val / 16384, ht⟩ : Fin cfg0.N).val = (i 1).val / 16384 := rfl
    rw [hv] at xa xb ⊢
    by_cases h61 : (i 1).val / 16384 < 61
    · rw [xa h61]; omega
    · have : (i 1).val / 16384 = 61 := by omega
      rw [xb this]; omega

/-- The result array after the run: `G` of the scaled queries and the bank. -/
theorem final (c : Dev nD) : (dats m 0 c).arrAt 2 cfg0.N = G (V m c main_v18) (V m c main_arg1) :=
  (dats m 0 c).arrAt_eq_of_cover 2 _ (fun t _ => flushed_eq m c t) cover

/-! ## The body obligation with every window named, and the run -/

def bodyPreV (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPostV (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-- What the body leaves in the score buffer, filled back over itself with the written-back columns of the definite
    tile's scores, is itself: the two agree on those columns (`cut_agree`). -/
theorem fill_after2 (c : Dev nD) (t : Fin cfg0.N) (d1 : S16384x128.Idx → Elt Ideal .f32) :
    (cfg0.win 2).fill (cfg0.grid.coords t)
        (k0_pay1 (F := Ideal) (win0_1.fill (grid0.coords t) d1 (iblk m c 1 t)) (iblk m c 0 t))
        ((cfg0.win 2).cut (cfg0.grid.coords t) ((dats m 0 c).after 2 t))
      = k0_pay1 (F := Ideal) (win0_1.fill (grid0.coords t) d1 (iblk m c 1 t)) (iblk m c 0 t) := by
  rw [after0_2]
  exact win0_2.fill_congr_cut (grid0.coords t) (cut_agree m c t d1)

/-- The body at any point, every window named: as for the frame, and the score buffer comes back holding the body's
    function of what the two argument buffers held, which on the columns written back is the function of the
    definite tile (`cut_agree`). -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have hx : win0_1.cut (grid0.coords t) (xtile m c t) = iblk m c 1 t := win0_1.cut_fill _ _ _
    change _ ⊢ owns (c : Thread nD τ) (st0_1 t) fullShare (win0_1.fill (grid0.coords t) d1 (win0_1.cut (grid0.coords t) (xtile m c t)))
    rw [hx]; try iexact H1
  · iexists (k0_pay1 (F := Ideal) (win0_1.fill (grid0.coords t) d1 (iblk m c 1 t)) (iblk m c 0 t))
    rw [fill_after2 m c t d1]; try iexact H2

/-- The library's body obligation, every window named. -/
theorem body_obligationV (c : Dev nD) :
    BodyObligationLoose (dats (F := Ideal) m 0 c) (defs₀ (F := Ideal)) Variants.none () Set.univ := fun t => by
  rw [bigSep_W0, bigSep_W0]
  exact sound_bodyV m c t

set_option backward.isDefEq.respectTransparency.types false in
/-- The run with every array's final contents named by the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligationV m c) (hshare := fun c => (dats m 0 c).share_full fun _ => rfl)
    (howed := fun _ _ => rfl) (V := V m) (hmain := hmain m Variants.none) (hA := fun _ _ => rfl) (hΦ := fun _ _ => rfl)

/-- The kernel program's run at the ideal instance: it terminates without a fault, its result array ends at `G` of
    the scaled queries (as the host operations before the launch leave them) and the bank, and its arguments end as
    launched. -/
theorem run : θ_run defs (onTc (τ := τ) (main (F := Ideal))) ⟨m, fun _ => 0, ρ⟩ (fun r => ∀ c : Dev nD,
      r.2.mem ((c.tc : Thread nD τ).loc main_v19) = G (V m c main_v18) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).1 2).trans (final m c)).trans (congrArg (G (V m c main_v18)) (V_main_arg1 m c)),
     ((h c).2 main_arg0 (Pipeline.mem_restRefs_of main_arg0 (by decide) (by decide))).trans (V_main_arg0 m c),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c)⟩) (run_main m ρ)

end Cert.KernelIdeal.TileValue

end
-- ==== Proof.Spec.lean ====
/-
  The mathematics shared by the two programs, stated once over the extended reals.

  Both programs score 64 query rows `z` against 1 000 000 bank rows `x` (128 columns each) by cosine similarity and
  multiply by one scalar built from three weights `w`:
    * `zn z`   — each query row divided by its Euclidean norm clamped from below by `δ` (the word 0x322BCC77);
    * `sc w`   — the sum over the three weights of softmax(w) divided entry by entry by the table (0.07, 0.1, 0.2);
    * `rowss x n` — the sum of squares of bank row `n`.
  The kernel folds the scalar into the query rows and normalises a bank row by the reciprocal square root of its clamped
  sum of squares (`kerVal`, the clamp a parameter `c`); the reference divides a bank row by its clamped norm and scales the
  finished dot product (`refVal`). The two host chains `zn` and `sc` are the same operations in both programs and are
  never opened outside the module that proves their values real.
-/
import proofs.«109332_j17746804867779_2_alg».proof.ReferenceIdeal
import proofs.«109332_j17746804867779_2_alg».proof.Proof.Gen.ReferenceIdeal
import Idealize.ShloMosaic.PureOps.Ideal
import Idealize.ShloMosaic.Lib.ValueIdx

noncomputable section

open scoped BigOperators

namespace Cert.Cosine

open Idealize.ShloMosaic Idealize.ShloMosaic.ValueIdx Cert.ReferenceIdeal Cert.ReferenceIdeal.Facts₀

/-- The clamp of both norms: the 32-bit float word 0x322BCC77 (the float nearest 1e-8). -/
def δ : EReal := Ideal.ofBits .f32 0x322BCC77#32

/-- Query rows divided by their clamped Euclidean norms: the host chain both programs apply to `z`. -/
def zn (z : FVec Ideal S64x128 .f32) : FVec Ideal S64x128 .f32 :=
  Host.divf (F := Ideal) z (broadcastInDim S64x128 ![0, 1] bcast_S64x1_S64x128_0_1
    (maximumf (F := Ideal)
      (Host.sqrt (F := Ideal) (broadcastInDim S64x1 ![0] bcast_S64_S64x1_0
        (Host.reduceAdd (F := Ideal) (mulf (F := Ideal) z z) (constant (F := Ideal) S_ .f32 0x00000000#32) reducesTo_S64x128_S64_d1 h_S_)))
      (broadcastInDim S64x1 ![] bcast_S_S64x1 (constant (F := Ideal) S_ .f32 0x322BCC77#32))))

/-- The weights shifted by their maximum and exponentiated (the numerators of the softmax). -/
def expw (w : FVec Ideal S3 .f32) : FVec Ideal S3 .f32 :=
  Host.exp (F := Ideal) (subf (F := Ideal) w (broadcastInDim S3 ![0] bcast_S1_S3_0 (broadcastInDim S1 ![] bcast_S_S1
    (maximumf (F := Ideal) (constant (F := Ideal) S_ .f32 0xFF800000#32)
      (Host.reduce (FloatOps.maximumf (F := Ideal)) w (constant (F := Ideal) S_ .f32 0xFF800000#32) reducesTo_S3_S_d0 h_S_)))))

/-- The scalar both programs scale by: the sum of softmax(w) / (0.07, 0.1, 0.2), a rank-0 array. -/
def sc (w : FVec Ideal S3 .f32) : FVec Ideal S_ .f32 :=
  Host.reduceAdd (F := Ideal)
    (Host.divf (F := Ideal)
      (Host.divf (F := Ideal) (expw w) (broadcastInDim S3 ![0] bcast_S1_S3_0 (broadcastInDim S1 ![] bcast_S_S1
        (Host.reduceAdd (F := Ideal) (expw w) (constant (F := Ideal) S_ .f32 0x00000000#32) reducesTo_S3_S_d0 h_S_))))
      (fun i => FloatOps.ofBits (F := Ideal) .f32 (lit0 (S3.rowMajor i))))
    (constant (F := Ideal) S_ .f32 0x00000000#32) reducesTo_S3_S_d0 h_S_

/-- The sum of squares of bank row `n`. -/
def rowss (x : FVec Ideal S1000000x128 .f32) (n : Fin 1000000) : EReal :=
  ∑ j : Fin 128, x (ix2 n j) * x (ix2 n j)

/-- What the kernel computes at entry (b, n), the clamp `c` of the sum of squares a parameter. -/
def kerVal (c : EReal) (z : FVec Ideal S64x128 .f32) (x : FVec Ideal S1000000x128 .f32) (w : FVec Ideal S3 .f32)
    (b : Fin 64) (n : Fin 1000000) : EReal :=
  ∑ k : Fin 128, (zn z (ix2 b k) * sc w ix0) * (x (ix2 n k) * Ideal.rsqrt (max (rowss x n) c))

/-- What the reference computes at entry (b, n). -/
def refVal (z : FVec Ideal S64x128 .f32) (x : FVec Ideal S1000000x128 .f32) (w : FVec Ideal S3 .f32)
    (b : Fin 64) (n : Fin 1000000) : EReal :=
  (∑ k : Fin 128, zn z (ix2 b k) * Ideal.div (x (ix2 n k)) (max (Ideal.sqrt (rowss x n)) δ)) * sc w ix0

end Cert.Cosine

end
-- ==== Proof.KIHost.lean ====
/-
  The kernel program's host operations before its launch, read at the extended reals.

  Before the region is entered the program computes, on the host, the query rows divided by their clamped Euclidean
  norms and the softmax-weighted scalar, and multiplies the one by the broadcast of the other: the array the launch
  stages as its first window is the normalised queries times the scalar.
-/
import proofs.«109332_j17746804867779_2_alg».proof.Proof.Gen.KernelIdeal.Frame
import proofs.«109332_j17746804867779_2_alg».proof.Proof.Spec
import Idealize.ShloMosaic.Lib.StableHlo.Run
import Idealize.ShloMosaic.Lib.ValueIdx
import Idealize.ShloMosaic.Lib.Pipeline.Value

noncomputable section

namespace Cert.KernelIdeal.HostPrefix

open Cert.KernelIdeal Cert.KernelIdeal.Gen Idealize.ShloMosaic Idealize.ShloMosaic.TcCoe ValueIdx
open Idealize.ShloMosaic.StableHlo

set_option maxHeartbeats 400000 in
/-- The scaled queries the launch stages: the normalised query rows times the broadcast scalar. -/
theorem V_main_v18 (m : (ℓ : Loc nD τ sig) → Buf (Elt Ideal) ℓ) (c : Dev nD) :
    (Cert.KernelIdeal.Gen.V (F := Ideal) m c main_v18 : S64x128.Idx → EReal)
      = mulf (F := Ideal) (Cert.Cosine.zn (m ((c : Thread nD τ).loc main_arg0)))
          (broadcastInDim S64x128 ![] Cert.KernelIdeal.Facts₀.bcast_S_S64x128 (Cert.Cosine.sc (m ((c : Thread nD τ).loc main_arg2)))) := by
  dsimp only [Gen.V]
  simp only [Gen.hostOps0, Gen.hostOps0_1, Gen.hostOps0_2, List.flatten_cons, List.flatten_nil, List.append_nil,
    List.cons_append, List.nil_append]
  after_results_simp
  rfl

/-- The scaled queries read at an entry: the normalised query entry times the scalar. -/
theorem scaled_apply (z : FVec Ideal Cert.ReferenceIdeal.S64x128 .f32) (w : FVec Ideal Cert.ReferenceIdeal.S3 .f32)
    (b : Fin 64) (k : Fin 128) :
    mulf (F := Ideal) (Cert.Cosine.zn z)
        (broadcastInDim S64x128 ![] Cert.KernelIdeal.Facts₀.bcast_S_S64x128 (Cert.Cosine.sc w)) (ix2 b k)
      = Cert.Cosine.zn z (ix2 b k) * Cert.Cosine.sc w ix0 := by
  exact congrArg (fun j => Cert.Cosine.zn z (ix2 b k) * Cert.Cosine.sc w j) (eq_ix0 _)

end Cert.KernelIdeal.HostPrefix

end
-- ==== Proof.LibHostRows.lean ====
/-
  Host-side row operations read at an index, for arbitrary extents.

  What the host's layout and arithmetic steps hold at one index: a rank-0 array broadcast to any shape, a vector
  laid out as a column, a column stretched over the columns of a matrix, the host's entry-by-entry quotient and
  square root, a row's sum of squares by the host's sum over axis 1 from the zero word, and the host's contraction
  of the rows of one matrix with the rows of another as a plain finite sum.
-/
import proofs.«109332_j17746804867779_2_alg».proof.Proof.LibMatmul
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.HostRows

open Idealize.ShloMosaic Idealize.ShloMosaic.ValueIdx

variable {α : Type}

/-- A rank-0 array broadcast to any shape reads, at every index, its one entry. -/
theorem bcast_scalar_apply {t : Shape} (h : (⟨0, ![]⟩ : Shape).BroadcastsInDim t (![] : Fin 0 → Fin t.rank))
    (v : (⟨0, ![]⟩ : Shape).Idx → α) (j : t.Idx) : broadcastInDim t ![] h v j = v ix0 :=
  broadcastInDim_apply _ h v j ix0 fun a => a.elim0

/-- A length-N vector broadcast to an N x 1 column reads, at (n, u), the vector's entry n. -/
theorem bcast_vec_col_apply {N : ℕ} (h : (⟨1, ![N]⟩ : Shape).BroadcastsInDim ⟨2, ![N, 1]⟩ (![0] : Fin 1 → Fin 2))
    (v : (⟨1, ![N]⟩ : Shape).Idx → α) (n : Fin N) (u : Fin 1) :
    broadcastInDim ⟨2, ![N, 1]⟩ ![0] h v (ix2 n u) = v (ix1 n) := by
  refine broadcastInDim_apply _ h v (ix2 n u) (ix1 n) fun a => ?_
  match a with
  | ⟨0, _⟩ =>
    show n.val = if N = 1 then 0 else n.val
    split
    · have := n.isLt; omega
    · rfl

/-- An N x 1 column broadcast to N x K reads, at (n, k), the column's entry (n, 0): every row is constant. -/
theorem bcast_col_apply {N K : ℕ} (h : (⟨2, ![N, 1]⟩ : Shape).BroadcastsInDim ⟨2, ![N, K]⟩ (![0, 1] : Fin 2 → Fin 2))
    (v : (⟨2, ![N, 1]⟩ : Shape).Idx → α) (n : Fin N) (k : Fin K) :
    broadcastInDim ⟨2, ![N, K]⟩ ![0, 1] h v (ix2 n k) = v (ix2 n (0 : Fin 1)) := by
  refine broadcastInDim_apply _ h v (ix2 n k) (ix2 n (0 : Fin 1)) fun a => ?_
  match a with
  | ⟨0, _⟩ =>
    show n.val = if N = 1 then 0 else n.val
    split
    · have := n.isLt; omega
    · rfl
  | ⟨1, _⟩ =>
    show (0 : ℕ) = if (1 : ℕ) = 1 then 0 else k.val
    rw [if_pos rfl]

/-- The host's entry-by-entry quotient reads, at an index, the quotient of the two entries there. -/
theorem hostDivf_apply {s : Shape} {φ : FTy} (a c : FVec Ideal s φ) (i : s.Idx) :
    Host.divf a c i = Ideal.div (a i) (c i) := rfl

/-- The host's entry-by-entry square root reads, at an index, the square root of the entry there. -/
theorem hostSqrt_apply {s : Shape} {φ : FTy} (a : FVec Ideal s φ) (i : s.Idx) :
    Host.sqrt a i = Ideal.sqrt (a i) := rfl

/-- The host's sum along the rows of the entrywise square of an N x K array, started from the zero word, reads at
    row n the plain sum over j of x(n, j) · x(n, j): the zero word denotes 0, which the sum absorbs. -/
theorem rowSumSq_apply {N K : ℕ} (x : FVec Ideal ⟨2, ![N, K]⟩ .f32)
    (h' : (⟨2, ![N, K]⟩ : Shape).ReducesTo [1] ⟨1, ![N]⟩) (hu : 0 < (⟨0, ![]⟩ : Shape).numel) (n : Fin N) :
    Host.reduceAdd (F := Ideal) (mulf (F := Ideal) x x) (constant (F := Ideal) ⟨0, ![]⟩ .f32 0x00000000#32) h' hu (ix1 n)
      = ∑ j : Fin K, x (ix2 n j) * x (ix2 n j) := by
  have h : (⟨2, ![N, K]⟩ : Shape).Reduces [1] ⟨1, ![N]⟩ := h'.elim fun hr hs => ⟨hr, Nat.one_pos, hs⟩
  show Ideal.hostReduceAdd h' (mulf (F := Ideal) x x) (Ideal.ofBits .f32 0x00000000#32) (ix1 n) = _
  rw [Ideal.hostReduceAdd_single h' h, Ideal.ofBits_zero_f32, zero_add]
  refine Finset.sum_congr rfl fun k _ => ?_
  have e : h.lift (ix1 n) k = ix2 n k := by
    funext c
    apply Fin.ext
    match c with
    | ⟨0, _⟩ => rfl
    | ⟨1, _⟩ => rfl
  rw [e]
  rfl

/-- The host's product of an M x K array with an N x K array along their second axes reads, at (p, q), the sum over k
    of lhs(p, k) · rhs(q, k): it is the matrix-unit product into a zero accumulator, which has that reading. -/
theorem dotGeneral_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    Host.dotGeneral (F := Ideal) (Cert.MatmulAt.ntDims wf) prec lhs rhs (ix2 p q)
      = ∑ k : Fin K, lhs (ix2 p k) * rhs (ix2 q k) :=
  (congrFun (matmul_zero_eq_dotGeneral (Cert.MatmulAt.ntDims wf) prec lhs rhs) (ix2 p q)).symm.trans
    (Cert.MatmulAt.matmul_zero_nt_apply wf prec lhs rhs p q)

end Cert.HostRows

end
-- ==== Proof.RefValue.lean ====
/-
  The reference's result read at an entry.

  The reference divides every bank row by its Euclidean norm clamped from below by δ, contracts the prepared query rows
  with the normalised bank rows along the 128 columns, and multiplies every entry of the 64 x 1 000 000 product by the
  scalar built from the weights. This module spells that result term through the two shared host chains of the
  specification (the prepared query rows and the scalar) and reads it at entry (b, n):
      ( Σ_k zn(b, k) · ( x(n, k) / max( sqrt( Σ_j x(n, j)² ), δ ) ) ) · sc.
  Every layout step is read at an index by a lemma stated for arbitrary extents, so nothing ranges over the bank rows.
-/
import proofs.«109332_j17746804867779_2_alg».proof.Proof.Spec
import proofs.«109332_j17746804867779_2_alg».proof.Proof.Gen.ReferenceIdeal
import proofs.«109332_j17746804867779_2_alg».proof.Proof.LibHostRows

noncomputable section

open scoped BigOperators

namespace Cert.ReferenceIdeal.RefValue

open Idealize.ShloMosaic Idealize.ShloMosaic.ValueIdx Cert.ReferenceIdeal Cert.ReferenceIdeal.Facts₀ Cert.HostRows

/-- The reference's result term, spelled through the specification's two shared chains: the prepared query rows
    contracted with the bank rows divided by their clamped norms, every entry multiplied by the scalar. -/
def spelled (z : FVec Ideal S64x128 .f32) (x : FVec Ideal S1000000x128 .f32) (w : FVec Ideal S3 .f32) :
    FVec Ideal S64x1000000 .f32 :=
  mulf (F := Ideal)
    (Host.dotGeneral (F := Ideal) dot_S64x128_S1000000x128_S64x1000000_1_1_0_0_n_n none (Cert.Cosine.zn z)
      (Host.divf (F := Ideal) x (broadcastInDim S1000000x128 ![0, 1] bcast_S1000000x1_S1000000x128_0_1
        (maximumf (F := Ideal)
          (Host.sqrt (F := Ideal) (broadcastInDim S1000000x1 ![0] bcast_S1000000_S1000000x1_0
            (Host.reduceAdd (F := Ideal) (mulf (F := Ideal) x x) (constant (F := Ideal) S_ .f32 0x00000000#32) reducesTo_S1000000x128_S1000000_d1 h_S_)))
          (broadcastInDim S1000000x1 ![] bcast_S_S1000000x1 (constant (F := Ideal) S_ .f32 0x322BCC77#32))))))
    (broadcastInDim S64x1000000 ![] bcast_S_S64x1000000 (Cert.Cosine.sc w))

/-- The reference's result at entry (b, n) is the specification's value: the contraction of prepared query row b with
    bank row n divided by its clamped norm, times the scalar. -/
theorem spelled_apply (z : FVec Ideal S64x128 .f32) (x : FVec Ideal S1000000x128 .f32) (w : FVec Ideal S3 .f32)
    (b : Fin 64) (n : Fin 1000000) : spelled z x w (ix2 b n) = Cert.Cosine.refVal z x w b n := by
  unfold spelled Cert.Cosine.refVal
  refine (mulf_apply _ _ _).trans ?_
  refine congrArg₂ (· * ·) ?_ ?_
  · refine (dotGeneral_nt_apply dot_S64x128_S1000000x128_S64x1000000_1_1_0_0_n_n_wf none _ _ b n).trans ?_
    refine Finset.sum_congr rfl fun k _ => ?_
    refine congrArg (Cert.Cosine.zn z (ix2 b k) * ·) ?_
    refine (hostDivf_apply _ _ _).trans ?_
    refine congrArg (Ideal.div (x (ix2 n k))) ?_
    refine (bcast_col_apply _ _ n k).trans ?_
    refine (maximumf_apply _ _ _).trans ?_
    refine congrArg₂ max ?_ ?_
    · refine (hostSqrt_apply _ _).trans ?_
      refine congrArg Ideal.sqrt ?_
      refine (bcast_vec_col_apply _ _ n 0).trans ?_
      exact rowSumSq_apply x _ _ n
    · refine (bcast_scalar_apply _ _ _).trans ?_
      rfl
  · exact bcast_scalar_apply _ _ _

end Cert.ReferenceIdeal.RefValue

end
-- ==== Proof.LibRealValued.lean ====
/-
  Extended reals that are real numbers.

  The arithmetic of the extended reals is the arithmetic of the reals away from the infinities: sums, products and
  maxima of real values are real values, and so is a finite sum of them.  One law of subtraction that fails at the
  infinities holds as soon as the MIDDLE term is real: `a - (b + c) = (a - b) - c`.  It is the law that turns a
  log-softmax written `x - (m + log s)` into the one written `(x - m) - log s`.
-/
import Idealize.ShloMosaic.PureOps.Ideal

open scoped BigOperators

namespace Cert.RealValued

/-- An extended real that is the image of a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) : IsReal (if p then x else y) := by
  split
  · exact hx
  · exact hy

/-- A finite sum of real values is a real value. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The maximum of real values over a nonempty finite family, folded from the bottom element, is a real value. -/
theorem IsReal.fold_max {ι : Type*} (s : Finset ι) (f : ι → EReal) (hs : s.Nonempty) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    induction t using Finset.induction_on with
    | empty => intro _; exact Or.inl ⟨rfl, Finset.fold_empty⟩
    | insert a t ha ih =>
      intro ht
      rw [Finset.fold_insert ha]
      rcases ih (fun i hi => ht i (Finset.mem_insert_of_mem hi)) with ⟨_, e⟩ | hr
      · rw [e, max_bot_right]; exact Or.inr (ht a (Finset.mem_insert_self a t))
      · exact Or.inr ((ht a (Finset.mem_insert_self a t)).max hr)
  rcases key s h with ⟨e, _⟩ | hr
  · exact absurd e hs.ne_empty
  · exact hr

/-- Subtracting a sum whose first term is real: the subtraction distributes. -/
theorem sub_add_eq_sub_sub_of_isReal (a c : EReal) {b : EReal} (hb : IsReal b) : a - (b + c) = a - b - c := by
  rw [sub_eq_add_neg, sub_eq_add_neg, sub_eq_add_neg, EReal.neg_add (Or.inl hb.ne_bot) (Or.inl hb.ne_top), sub_eq_add_neg,
    add_assoc]

end Cert.RealValued
-- ==== Proof.LibRealArrays.lean ====
/-
  Arrays all of whose entries are real numbers, and the operations that keep them so.

  A gather and a broadcast only move entries; a scatter-add adds, to each entry, a finite sum of update entries; a
  matrix product is a finite sum of products; the pointwise sum, product and maximum of real entries are real.  None of
  this looks at WHERE an index list points: it holds for every index list.  One pointwise case uses the values: the
  inverse square root is taken only where its argument is positive, and there it is a real number.
-/
import proofs.«109332_j17746804867779_2_alg».proof.Proof.LibRealValued
import Idealize.ShloMosaic.PureOps.Ideal.Laws

noncomputable section

namespace Cert.RealArrays

open Idealize.ShloMosaic Cert.RealValued
open scoped BigOperators

/-- Every entry is a real number. -/
def AllReal {S : Shape} (v : S.Idx → EReal) : Prop := ∀ i, IsReal (v i)

theorem allReal_broadcastInDim {s t : Shape} (dims : Fin s.rank → Fin t.rank) (h : s.BroadcastsInDim t dims)
    (x : s.Idx → EReal) (hx : AllReal x) : AllReal (broadcastInDim t dims h x) := fun _ => hx _

theorem allReal_gather {s si t : Shape} {w : Nat} (d : GatherDims s si t) (x : s.Idx → EReal) (idx : IVec si w)
    (hx : AllReal x) : AllReal (Host.gather d x idx) := fun _ => hx _

theorem allReal_scatterAdd {s si su : Shape} {w : Nat} (d : ScatterDims s si su) (x : s.Idx → EReal) (idx : IVec si w)
    (u : su.Idx → EReal) (hx : AllReal x) (hu : AllReal u) :
    AllReal (Host.scatterAdd (F := Ideal) (φ := .f32) d x idx u) := fun i => by
  show IsReal (x i + ∑ j ∈ Finset.univ.filter (fun j => d.resultIdx? j idx = some i), u j)
  exact (hx i).add (IsReal.sum _ _ fun j _ => hu j)

theorem allReal_dotGeneral {sl sr so : Shape} (d : DotDims sl sr so) (prec : Option ContractPrecision)
    (x : sl.Idx → EReal) (y : sr.Idx → EReal) (hx : AllReal x) (hy : AllReal y) :
    AllReal (Host.dotGeneral (F := Ideal) (φ₁ := .f32) (φ₂ := .f32) d prec x y) := fun j => by
  simp only [Host.dotGeneral]
  rw [Ideal.dotGeneral_apply]
  exact IsReal.sum _ _ fun k _ => (hx _).mul (hy _)

theorem allReal_mulf {s : Shape} (x y : s.Idx → EReal) (hx : AllReal x) (hy : AllReal y) :
    AllReal (mulf (F := Ideal) (φ := .f32) x y) := fun i => (hx i).mul (hy i)

theorem allReal_addf {s : Shape} (x y : s.Idx → EReal) (hx : AllReal x) (hy : AllReal y) :
    AllReal (addf (F := Ideal) (φ := .f32) x y) := fun i => (hx i).add (hy i)

theorem allReal_maximumf {s : Shape} (x y : s.Idx → EReal) (hx : AllReal x) (hy : AllReal y) :
    AllReal (maximumf (F := Ideal) (φ := .f32) x y) := fun i => (hx i).max (hy i)

/-- A bit pattern whose exponent field is not all ones denotes a real number. -/
theorem isReal_ieee (e mant : Nat) {w : Nat} (b : BitVec w) (h : (b.extractLsb' mant e).toNat ≠ 2 ^ e - 1) :
    IsReal (Ideal.ieee e mant b) := by
  unfold Ideal.ieee
  simp only [if_neg h]
  split
  · exact ⟨_, rfl⟩
  · exact ⟨_, rfl⟩

/-- The patterns of zero and of one denote real numbers. -/
theorem isReal_zeroPattern : IsReal (Ideal.ofBits .f32 0x00000000#32) := by
  show IsReal (Ideal.ieee 8 23 (0x00000000#32 : BitVec 32))
  exact isReal_ieee 8 23 _ (by decide)
theorem isReal_onePattern : IsReal (Ideal.ofBits .f32 0x3F800000#32) := by
  show IsReal (Ideal.ieee 8 23 (0x3F800000#32 : BitVec 32))
  exact isReal_ieee 8 23 _ (by decide)

theorem allReal_constant {s : Shape} (b : BitVec 32) (hb : IsReal (Ideal.ofBits .f32 b)) :
    AllReal (constant (F := Ideal) s .f32 b) := fun _ => hb

/-- Where the argument is positive take its inverse square root, elsewhere the other value: a real number when the
    argument and the other value are. -/
theorem isReal_select_rsqrt (d z : EReal) (hd : IsReal d) (hz : IsReal z) :
    IsReal (Scalar.select (Ideal.cmp .ogt d (Ideal.ofBits .f32 0x00000000#32)) (Ideal.rsqrt d) z) := by
  obtain ⟨r, rfl⟩ := hd
  rw [Ideal.ofBits_zero_f32]
  unfold Scalar.select Ideal.cmp
  by_cases hr : (0 : EReal) < (r : EReal)
  · have hr' : 0 < r := EReal.coe_pos.mp hr
    simp only [hr, decide_true, BitVec.ofBool_true, if_true]
    rw [Ideal.rsqrt_coe, if_neg (not_lt.mpr hr'.le), if_neg hr'.ne']
    exact ⟨_, rfl⟩
  · simp only [hr, decide_false, BitVec.ofBool_false]
    rw [if_neg (by decide)]
    exact hz

end Cert.RealArrays

end
-- ==== Proof.Law.Real.lean ====
/-
  The two host chains of both programs take real inputs to real values.

  A query row divided by its clamped Euclidean norm is a real number divided by a real number that is at least the
  clamp, which is positive; the softmax-weighted scalar is a finite sum of quotients of real numbers by positive real
  numbers (an exponential is positive, a nonempty sum of positive numbers is positive, and the three table entries are
  positive).  The module also evaluates the clamp's word, and records that coercion from the reals commutes with
  finite sums and with the maximum.
-/
import proofs.«109332_j17746804867779_2_alg».proof.Proof.Spec
import proofs.«109332_j17746804867779_2_alg».proof.Proof.LibRealArrays

noncomputable section

open scoped BigOperators

namespace Cert.Cosine

open Idealize.ShloMosaic Idealize.ShloMosaic.ValueIdx Cert.ReferenceIdeal Cert.ReferenceIdeal.Facts₀
open Cert.RealValued Cert.RealArrays

/-! ### Coercion from the reals -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-! ### The words the two chains spell -/

/-- The clamp's word 0x322BCC77 is (2^23 + 2870391) · 2^-50. -/
theorem δ_val : δ = ((11258999 / 1125899906842624 : ℝ) : EReal) := by
  unfold δ
  simp [Ideal.ofBits, Ideal.ieee, -EReal.coe_mul]; norm_num

/-- The word 0xFF800000 is minus infinity. -/
theorem ofBits_negInf : Ideal.ofBits .f32 0xFF800000#32 = ⊥ := by
  simp [Ideal.ofBits, Ideal.ieee]

/-- The word 0x00000000 is zero. -/
theorem ofBits_zero : Ideal.ofBits .f32 0x00000000#32 = 0 := by
  simp [Ideal.ofBits, Ideal.ieee]

/-- The table's first word 0x3D8F5C29 is (2^23 + 1006633) · 2^-27. -/
theorem ofBits_t0 : Ideal.ofBits .f32 0x3D8F5C29#32 = ((9395241 / 134217728 : ℝ) : EReal) := by
  simp [Ideal.ofBits, Ideal.ieee, -EReal.coe_mul]; norm_num

/-- The table's second word 0x3DCCCCCD is (2^23 + 5033165) · 2^-27. -/
theorem ofBits_t1 : Ideal.ofBits .f32 0x3DCCCCCD#32 = ((13421773 / 134217728 : ℝ) : EReal) := by
  simp [Ideal.ofBits, Ideal.ieee, -EReal.coe_mul]; norm_num

/-- The table's third word 0x3E4CCCCD is (2^23 + 5033165) · 2^-26. -/
theorem ofBits_t2 : Ideal.ofBits .f32 0x3E4CCCCD#32 = ((13421773 / 67108864 : ℝ) : EReal) := by
  simp [Ideal.ofBits, Ideal.ieee, -EReal.coe_mul]; norm_num

/-! ### Positive real values -/

/-- An extended real that is the image of a positive real number. -/
def IsPos (x : EReal) : Prop := ∃ r : ℝ, 0 < r ∧ x = (r : EReal)

theorem IsPos.isReal {x : EReal} (h : IsPos x) : IsReal x := by
  obtain ⟨r, _, e⟩ := h; exact ⟨r, e⟩

theorem IsPos.ne_zero {x : EReal} (h : IsPos x) : x ≠ 0 := by
  obtain ⟨r, hr, rfl⟩ := h
  intro e
  exact hr.ne' (EReal.coe_eq_zero.mp e)

/-- The clamp is a positive real number. -/
theorem isPos_δ : IsPos δ := ⟨_, by norm_num, δ_val⟩

/-- Every entry of the table (0.07, 0.1, 0.2) is a positive real number. -/
theorem isPos_table (n : Fin 3) : IsPos (Ideal.ofBits .f32 (lit0 n)) := by
  fin_cases n
  · exact ⟨_, by norm_num, ofBits_t0⟩
  · exact ⟨_, by norm_num, ofBits_t1⟩
  · exact ⟨_, by norm_num, ofBits_t2⟩

/-- A nonempty finite sum of positive real values is a positive real value. -/
theorem IsPos.sum {ι : Type*} (s : Finset ι) (f : ι → EReal) (hs : s.Nonempty) (h : ∀ i ∈ s, IsPos (f i)) :
    IsPos (∑ i ∈ s, f i) := by
  classical
  have h' : ∀ i ∈ s, ∃ r : ℝ, 0 < r ∧ f i = (r : EReal) := h
  choose! g hg using h'
  refine ⟨∑ i ∈ s, g i, Finset.sum_pos (fun i hi => (hg i hi).1) hs, ?_⟩
  rw [coe_sum]
  exact Finset.sum_congr rfl fun i hi => (hg i hi).2

/-- The exponential of a real value is a positive real value. -/
theorem isPos_exp {x : EReal} (hx : IsReal x) : IsPos (Ideal.exp x) := by
  obtain ⟨r, rfl⟩ := hx
  exact ⟨Real.exp r, Real.exp_pos r, rfl⟩

/-- The difference of two real values is a real value. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-- A real value divided by a nonzero real value is a real value. -/
theorem isReal_div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e, EReal.coe_zero])
  rw [Ideal.div_coe hb, ← EReal.coe_mul]
  exact ⟨_, rfl⟩

/-- The square root of a real value, clamped from below by a positive real value, is a positive real value (the square
    root of a negative number is the bottom element, which the clamp absorbs). -/
theorem isPos_max_sqrt {x d : EReal} (hx : IsReal x) (hd : IsPos d) : IsPos (max (Ideal.sqrt x) d) := by
  obtain ⟨r, rfl⟩ := hx; obtain ⟨e, he, rfl⟩ := hd
  rw [Ideal.sqrt_coe]
  split
  · rw [max_eq_right bot_le]; exact ⟨e, he, rfl⟩
  · rw [← coe_max]; exact ⟨_, lt_max_of_lt_right he, rfl⟩

/-! ### The host's sums and maxima -/

/-- The host's sum of real entries from a real initial value has real entries. -/
theorem allReal_reduceAdd {s t u : Shape} {axes : List (Fin s.rank)} (x : s.Idx → EReal) (init : u.Idx → EReal)
    (h : s.ReducesTo axes t) (hu : 0 < u.numel) (hx : AllReal x) (hi : AllReal init) :
    AllReal (Host.reduceAdd (F := Ideal) (φ := .f32) x init h hu) := fun j => by
  show IsReal (init _ + ∑ i ∈ Finset.univ.filter (fun i => h.drop i = j), x i)
  exact (hi _).add (IsReal.sum _ _ fun i _ => hx i)

/-- The host's sum of positive entries from zero is positive at every index some operand index reduces to. -/
theorem isPos_reduceAdd {s t u : Shape} {axes : List (Fin s.rank)} (x : s.Idx → EReal)
    (h : s.ReducesTo axes t) (hu : 0 < u.numel) (hx : ∀ i, IsPos (x i)) (j : t.Idx) (hne : ∃ i, h.drop i = j) :
    IsPos (Host.reduceAdd (F := Ideal) (φ := .f32) x (constant (F := Ideal) u .f32 0x00000000#32) h hu j) := by
  show IsPos (Ideal.ofBits .f32 0x00000000#32 + ∑ i ∈ Finset.univ.filter (fun i => h.drop i = j), x i)
  rw [ofBits_zero, zero_add]
  refine IsPos.sum _ _ ?_ fun i _ => hx i
  obtain ⟨i, hi⟩ := hne
  exact ⟨i, by simp [hi]⟩

/-- The host's maximum of real entries from minus infinity is real at every index some operand index reduces to. -/
theorem isReal_reduceMax {s t u : Shape} {axes : List (Fin s.rank)} (x : s.Idx → EReal)
    (h : s.ReducesTo axes t) (hu : 0 < u.numel) (hx : AllReal x) (j : t.Idx) (hne : ∃ i, h.drop i = j) :
    IsReal (Host.reduce (FloatOps.maximumf (F := Ideal) (φ := .f32)) x (constant (F := Ideal) u .f32 0xFF800000#32) h hu j) := by
  rw [Host.reduce_eq_fold]
  show IsReal ((Finset.univ.filter fun i => h.drop i = j).fold Max.max (Ideal.ofBits .f32 0xFF800000#32) x)
  rw [ofBits_negInf]
  refine IsReal.fold_max _ _ ?_ fun i _ => hx i
  obtain ⟨i, hi⟩ := hne
  exact ⟨i, by simp [hi]⟩

/-! ### The two chains -/

/-- A property of every entry of an array holds of every entry of its broadcast. -/
theorem pred_broadcastInDim {s t : Shape} {P : EReal → Prop} (dims : Fin s.rank → Fin t.rank)
    (h : s.BroadcastsInDim t dims) (x : s.Idx → EReal) (hx : ∀ i, P (x i)) : ∀ i, P (broadcastInDim t dims h x i) :=
  fun _ => hx _

/-- The square roots of real entries, clamped entry by entry by positive real values, are positive real values. -/
theorem isPos_clampedNorm {s : Shape} (v d : s.Idx → EReal) (hv : AllReal v) (hd : ∀ k, IsPos (d k)) (k : s.Idx) :
    IsPos (maximumf (F := Ideal) (φ := .f32) (Host.sqrt (F := Ideal) (φ := .f32) v) d k) := by
  show IsPos (max (Ideal.sqrt (v k)) (d k))
  exact isPos_max_sqrt (hv k) (hd k)

/-- Real entries divided entry by entry by positive real values are real values. -/
theorem allReal_divf {s : Shape} (x y : s.Idx → EReal) (hx : AllReal x) (hy : ∀ k, IsPos (y k)) :
    AllReal (Host.divf (F := Ideal) (φ := .f32) x y) := fun k => by
  show IsReal (Ideal.div (x k) (y k))
  exact isReal_div (hx k) (hy k).isReal (hy k).ne_zero

/-- Query rows of real numbers, divided by their clamped norms, are rows of real numbers. -/
theorem zn_real (z : FVec Ideal S64x128 .f32) (hz : ∀ i, ∃ r : ℝ, z i = (r : EReal)) :
    ∀ i, ∃ r : ℝ, zn z i = (r : EReal) := by
  have hz' : AllReal z := hz
  unfold zn
  refine allReal_divf _ _ hz' (pred_broadcastInDim (P := IsPos) _ _ _ fun k => ?_)
  refine isPos_clampedNorm _ _ (allReal_broadcastInDim _ _ _ ?_) (pred_broadcastInDim (P := IsPos) _ _ _ fun _ => isPos_δ) k
  exact allReal_reduceAdd _ _ _ _ (allReal_mulf z z hz' hz') (allReal_constant _ isReal_zeroPattern)

/-- The softmax numerators of real weights are positive real numbers. -/
theorem isPos_expw (w : FVec Ideal S3 .f32) (hw : AllReal w) : ∀ i, IsPos (expw w i) := fun i => by
  unfold expw
  show IsPos (Ideal.exp (w i - _))
  refine isPos_exp (isReal_sub (hw i) ?_)
  refine pred_broadcastInDim (P := IsReal) _ _ _ (pred_broadcastInDim (P := IsReal) _ _ _ fun j => ?_) i
  show IsReal (max (Ideal.ofBits .f32 0xFF800000#32) (Host.reduce _ w _ reducesTo_S3_S_d0 h_S_ j))
  rw [ofBits_negInf, max_eq_right bot_le]
  exact isReal_reduceMax w _ _ hw j ⟨ix1 (0 : Fin 3), (eq_ix0 _).trans (eq_ix0 _).symm⟩

/-- The scalar built from real weights is a real number. -/
theorem sc_real (w : FVec Ideal S3 .f32) (hw : ∀ i, ∃ r : ℝ, w i = (r : EReal)) :
    ∃ r : ℝ, sc w ix0 = (r : EReal) := by
  have he := isPos_expw w hw
  unfold sc
  refine allReal_reduceAdd _ _ _ _ ?_ (allReal_constant _ isReal_zeroPattern) ix0
  refine allReal_divf _ _ (allReal_divf _ _ (fun i => (he i).isReal) ?_) (fun i => isPos_table _)
  refine pred_broadcastInDim (P := IsPos) _ _ _ (pred_broadcastInDim (P := IsPos) _ _ _ fun j => ?_)
  exact isPos_reduceAdd _ _ _ he j ⟨ix1 (0 : Fin 3), (eq_ix0 _).trans (eq_ix0 _).symm⟩

end Cert.Cosine

end
-- ==== Proof.Law.lean ====
/-
  The algebra joining the two programs: with real inputs, the kernel's entry and the reference's entry are equal.

  Write A_k for the normalised query entries, s for the scalar, X_k for the bank row's entries, T = Σ X_j² and d for
  the clamp.  The kernel sums (A_k · s) · (X_k · rsqrt (max T d²)); the reference sums A_k · (X_k / max (sqrt T) d) and
  multiplies by s.  The square root is monotone and sqrt (d²) = d, so sqrt (max T d²) = max (sqrt T) d, a positive real
  number q; the inverse square root of the positive real max T d² is 1/q and the division by the nonzero real q is
  the product with 1/q.  Every value being real, the factor s comes out of the finite sum.
-/
import proofs.«109332_j17746804867779_2_alg».proof.Proof.Law.Real

noncomputable section

open scoped BigOperators

namespace Cert.Cosine

open Idealize.ShloMosaic Idealize.ShloMosaic.ValueIdx Cert.ReferenceIdeal Cert.ReferenceIdeal.Facts₀

/-- The square root of a sum of squares clamped by d² is the norm clamped by d, for d ≥ 0. -/
theorem sqrt_max_sq (T d : ℝ) (hd : 0 ≤ d) : Real.sqrt (max T (d * d)) = max (Real.sqrt T) d := by
  rw [Real.sqrt_monotone.map_max, Real.sqrt_mul_self hd]

/-- The inverse square root of a real sum of squares clamped by d² > 0 is the reciprocal of the clamped norm. -/
theorem rsqrt_clamp (T d : ℝ) (hd : 0 < d) :
    Ideal.rsqrt (max (T : EReal) ((d * d : ℝ) : EReal)) = (((max (Real.sqrt T) d)⁻¹ : ℝ) : EReal) := by
  have hpos : 0 < max T (d * d) := lt_max_of_lt_right (mul_pos hd hd)
  rw [← coe_max, Ideal.rsqrt_coe, if_neg (not_lt.mpr hpos.le), if_neg hpos.ne', sqrt_max_sq T d hd.le]

/-- A real number divided by the clamped norm of a nonnegative real sum of squares is its product with the reciprocal. -/
theorem div_clamp (ξ T d : ℝ) (hT : 0 ≤ T) (hd : 0 < d) :
    Ideal.div (ξ : EReal) (max (Ideal.sqrt (T : EReal)) (d : EReal)) = ((ξ * (max (Real.sqrt T) d)⁻¹ : ℝ) : EReal) := by
  have hq : max (Real.sqrt T) d ≠ 0 := (lt_max_of_lt_right hd).ne'
  rw [Ideal.sqrt_coe, if_neg (not_lt.mpr hT), ← coe_max, Ideal.div_coe hq, one_div, ← EReal.coe_mul]

/-- The two programs' entries agree once every value is a real number. -/
theorem alg {ι : Type*} [Fintype ι] (a ξ : ι → ℝ) (σ d : ℝ) (hd : 0 < d) :
    ∑ k, ((a k : EReal) * (σ : EReal)) * ((ξ k : EReal) * Ideal.rsqrt (max (∑ j, (ξ j : EReal) * (ξ j : EReal)) ((d * d : ℝ) : EReal)))
      = (∑ k, (a k : EReal) * Ideal.div (ξ k : EReal) (max (Ideal.sqrt (∑ j, (ξ j : EReal) * (ξ j : EReal))) (d : EReal))) * (σ : EReal) := by
  have hS : (∑ j, (ξ j : EReal) * (ξ j : EReal)) = ((∑ j, ξ j * ξ j : ℝ) : EReal) := by
    rw [coe_sum]; exact Finset.sum_congr rfl fun j _ => (EReal.coe_mul _ _).symm
  have hT : 0 ≤ ∑ j, ξ j * ξ j := Finset.sum_nonneg fun j _ => mul_self_nonneg _
  rw [hS, rsqrt_clamp _ d hd]
  simp only [div_clamp _ _ d hT hd, ← EReal.coe_mul]
  rw [← coe_sum, ← coe_sum, ← EReal.coe_mul, Finset.sum_mul]
  congr 1
  exact Finset.sum_congr rfl fun k _ => by ring

/-- With real inputs the kernel's entry, its sum of squares clamped by the square of the reference's clamp, is the
    reference's entry. -/
theorem ker_eq_ref (z : FVec Ideal S64x128 .f32) (x : FVec Ideal S1000000x128 .f32) (w : FVec Ideal S3 .f32)
    (hz : ∀ i, ∃ r : ℝ, z i = (r : EReal)) (hx : ∀ i, ∃ r : ℝ, x i = (r : EReal)) (hw : ∀ i, ∃ r : ℝ, w i = (r : EReal))
    (b : Fin 64) (n : Fin 1000000) :
    kerVal (((126765058482001 / 1267650600228229401496703205376 : ℝ) : EReal)) z x w b n = refVal z x w b n := by
  choose a ha using fun k : Fin 128 => zn_real z hz (ix2 b k)
  obtain ⟨σ, hσ⟩ := sc_real w hw
  choose ξ hξ using fun k : Fin 128 => hx (ix2 n k)
  have hc : (126765058482001 / 1267650600228229401496703205376 : ℝ)
      = (11258999 / 1125899906842624 : ℝ) * (11258999 / 1125899906842624 : ℝ) := by norm_num
  rw [hc]
  unfold kerVal refVal rowss
  simp only [ha, hσ, hξ, δ_val]
  exact alg a ξ σ _ (by norm_num)

end Cert.Cosine

end
-- ==== Proof.Named.lean ====
/-
  The named constant of the kernel's idealization.

  The kernel clamps a bank row's sum of squares from below by the 32-bit float word 0x24E69595 (the float nearest
  1e-16). Its idealization names that constant "eps_sq", and the certificate's table gives the name the rational
  126765058482001 / 2^100, which is the exact value the word denotes. This module records that value and the
  statement that the naming preserves the printed program.
-/
import proofs.«109332_j17746804867779_2_alg».proof.Defs
import proofs.«109332_j17746804867779_2_alg».proof.KernelIdeal

noncomputable section

open Idealize.ShloMosaic

namespace Cert.KernelIdeal.Payload

/-- The named clamp "eps_sq" denotes, over the extended reals, the rational 126765058482001 / 2^100 that the
    certificate's table assigns to it. -/
theorem eps_sq_val :
    Named.named (F := Ideal) Cert.KernelIdeal.κ "eps_sq" (φ := .f32) 0x24E69595#32
      = ((126765058482001 / 1267650600228229401496703205376 : ℝ) : EReal) :=
  IdealRules.named_const.ideal_named_scalar _ _ _ _ rfl

/-- The one rewrite of the idealization: the table gives "eps_sq" the value 126765058482001 / 2^100, and the printed
    named constant is that value over the extended reals. -/
theorem preserves : Cert.preserves_Kernel_KernelIdeal :=
  IdealRules.named_const.statement Cert.KernelIdeal.κ "eps_sq" .f32 0x24E69595#32
    ((126765058482001 / 1267650600228229401496703205376 : ℝ) : EReal) rfl

end Cert.KernelIdeal.Payload

end
-- ==== Proof.Bridge.lean ====
/-
  The bridge between the two programs' results.

  The kernel's result array is the function G of the scaled queries q (the prepared query rows times the scalar) and
  the bank: entry (b, n) is Σ_k q(b,k) · (x(n,k) · rsqrt (max (Σ_j x(n,j)²) c)), with c the named clamp, whose value is
  the square of the reference's clamp δ. The reference's result at (b, n) is (Σ_k zn(b,k) · (x(n,k) / max (sqrt Σ_j x(n,j)²) δ)) · sc.
  With every input entry a real number the two are equal: rsqrt (max s δ²) = 1 / max (sqrt s) δ, and the real scalar
  comes out of the 128-term sum.
-/
import proofs.«109332_j17746804867779_2_alg».proof.Proof.KIValue
import proofs.«109332_j17746804867779_2_alg».proof.Proof.KIHost
import proofs.«109332_j17746804867779_2_alg».proof.Proof.RefValue
import proofs.«109332_j17746804867779_2_alg».proof.Proof.Law
import proofs.«109332_j17746804867779_2_alg».proof.Proof.Named

noncomputable section

open scoped BigOperators

namespace Cert.Bridge

open Idealize.ShloMosaic Idealize.ShloMosaic.ValueIdx Idealize.SL.Sem

/-- With real inputs, the reference's result term of a device's three argument arrays is the kernel's result
    function of the scaled queries the launch stages and the bank. -/
theorem result_eq (m : (ℓ : Loc Cert.KernelIdeal.nD Cert.KernelIdeal.τ Cert.KernelIdeal.sig) → Buf (Elt Ideal) ℓ)
    (c : Dev Cert.KernelIdeal.nD)
    (hz : ∀ i, ∃ r : ℝ, m ((c.tc : Thread Cert.KernelIdeal.nD Cert.KernelIdeal.τ).loc Cert.KernelIdeal.main_arg0) i = (r : EReal))
    (hx : ∀ i, ∃ r : ℝ, m ((c.tc : Thread Cert.KernelIdeal.nD Cert.KernelIdeal.τ).loc Cert.KernelIdeal.main_arg1) i = (r : EReal))
    (hw : ∀ i, ∃ r : ℝ, m ((c.tc : Thread Cert.KernelIdeal.nD Cert.KernelIdeal.τ).loc Cert.KernelIdeal.main_arg2) i = (r : EReal)) :
    Cert.ReferenceIdeal.RefValue.spelled
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.TileValue.G (Cert.KernelIdeal.Gen.V m c Cert.KernelIdeal.main_v18)
          (m ((c.tc : Thread Cert.KernelIdeal.nD Cert.KernelIdeal.τ).loc Cert.KernelIdeal.main_arg1)) := by
  funext i
  obtain ⟨b, n, rfl⟩ : ∃ (b : Fin 64) (n : Fin 1000000), i = ix2 b n := ⟨i 0, i 1, eq_ix2 i⟩
  rw [Cert.ReferenceIdeal.RefValue.spelled_apply, Cert.KernelIdeal.TileValue.G_ix2]
  unfold Cert.KernelIdeal.TileValue.entry
  rw [Cert.KernelIdeal.HostPrefix.V_main_v18]
  simp only [Cert.KernelIdeal.HostPrefix.scaled_apply, Cert.KernelIdeal.TileValue.clampC,
    Cert.KernelIdeal.Payload.eps_sq_val]
  exact (Cert.Cosine.ker_eq_ref _ _ _ hz hx hw b n).symm

end Cert.Bridge

end
-- ==== Proof.Finite.lean ====
/-
  The precondition decoded: every entry of the three argument arrays is a real number.

  The printed predicate computes, for each argument array, whether all its entries satisfy |a| < +∞ (the absolute value
  compared against the 32-bit float word 0x7F800000), and conjoins the three answers. Over the extended reals |a| is
  max a (-a) and the word 0x7F800000 denotes ⊤, so |a| < ⊤ excludes both ⊤ and ⊥: the entry is a real number.
-/
import proofs.«109332_j17746804867779_2_alg».proof.Defs
import proofs.«109332_j17746804867779_2_alg».proof.Proof.Gen.Pre_finite_inputs
import Idealize.ShloMosaic.Lib.ReduceAll
import Idealize.ShloMosaic.Lib.ValueIdx

noncomputable section

open Idealize.ShloMosaic

namespace Cert.Finite

/-- The rank-0 shape has exactly one index. -/
instance subsingleton_scalar_idx : Subsingleton Cert.Pre_finite_inputs.S_.Idx :=
  ⟨fun a b => funext fun d => d.elim0⟩

/-- The 32-bit float word 0x7F800000 denotes +∞. -/
theorem inf_word : Ideal.ofBits .f32 0x7F800000#32 = (⊤ : EReal) := by
  simp [Ideal.ofBits, Ideal.ieee]

/-- An extended real whose absolute value max a (-a) lies strictly below ⊤ is a real number. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- One entry's test: the comparison |a| < +∞ answering 1 says the entry is a real number. -/
theorem real_of_cmp (a : EReal)
    (h : Ideal.cmp .olt (max a (-a)) (Ideal.ofBits .f32 0x7F800000#32) = 1#1) : ∃ r : ℝ, a = (r : EReal) := by
  rw [inf_word] at h
  refine real_of_abs_lt_top a ?_
  by_contra hlt
  simp [Ideal.cmp, hlt] at h

/-- One array's test: if the conjunction over all entries of |a| < +∞ answers 1, every entry is a real number.
    Stated for any shape, so that nothing is ever evaluated over an index set. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf (F := Ideal) x)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, x i = (r : EReal) := by
  intro i
  have hi := Host.reduce_andi_all _ _ hr hu ValueIdx.ix0 e i
  exact real_of_cmp (x i) hi

/-- The precondition at the extended reals says that every entry of the query rows, the bank rows and the weights is
    a real number. -/
theorem real_of_fn (z : FVec Ideal Cert.Pre_finite_inputs.S64x128 .f32)
    (x : FVec Ideal Cert.Pre_finite_inputs.S1000000x128 .f32) (w : FVec Ideal Cert.Pre_finite_inputs.S3 .f32)
    (h : Cert.Pre_finite_inputs.fn (F := Ideal) z x w = (fun _ => 1#1)) :
    (∀ i, ∃ r : ℝ, z i = (r : EReal)) ∧ (∀ i, ∃ r : ℝ, x i = (r : EReal)) ∧ (∀ i, ∃ r : ℝ, w i = (r : EReal)) := by
  have h0 := congrFun h ValueIdx.ix0
  unfold Cert.Pre_finite_inputs.fn at h0
  dsimp only at h0
  obtain ⟨h12, h3⟩ := IntOp.andi_eq_one.1 h0
  obtain ⟨h1, h2⟩ := IntOp.andi_eq_one.1 h12
  exact ⟨real_of_all z _ _ _ h1, real_of_all x _ _ _ h2, real_of_all w _ _ _ h3⟩

end Cert.Finite

end
-- ==== Proof.RefRun.lean ====
/-
  The run of the reference program, read back as one pure term of its three arguments.

  The reference's entry function is a straight line of host operations once its two calls of the norm helper are
  replaced by the helper's five operations over the call's own buffers. This module lists those 40 operations in
  order, shows that the entry function is exactly their sequence, and concludes that every weakly fair execution
  terminates with the result buffer holding `out z x w` — the query rows over their clamped norms, contracted with
  the bank rows over their clamped norms, times the softmax-weighted scalar — and the three arguments unchanged.
-/
import proofs.«109332_j17746804867779_2_alg».proof.Proof.Spec
import proofs.«109332_j17746804867779_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe
  Idealize.SL.Sem Idealize.ShloMosaic.StableHlo

/-- Bank rows divided by their clamped Euclidean norms: the chain the reference applies to `x` before the
    contraction. -/
def xn (x : FVec Ideal S1000000x128 .f32) : FVec Ideal S1000000x128 .f32 :=
  Host.divf (F := Ideal) x (broadcastInDim S1000000x128 ![0, 1] bcast_S1000000x1_S1000000x128_0_1
    (maximumf (F := Ideal)
      (Host.sqrt (F := Ideal) (broadcastInDim S1000000x1 ![0] bcast_S1000000_S1000000x1_0
        (Host.reduceAdd (F := Ideal) (mulf (F := Ideal) x x) (constant (F := Ideal) S_ .f32 0x00000000#32)
          reducesTo_S1000000x128_S1000000_d1 h_S_)))
      (broadcastInDim S1000000x1 ![] bcast_S_S1000000x1 (constant (F := Ideal) S_ .f32 0x322BCC77#32))))

/-- What the reference leaves in its result buffer, as a function of its three arguments: the contraction of the
    normalised query rows with the normalised bank rows, every entry multiplied by the scalar `sc w`. -/
def out (z : FVec Ideal S64x128 .f32) (x : FVec Ideal S1000000x128 .f32) (w : FVec Ideal S3 .f32) :
    FVec Ideal S64x1000000 .f32 :=
  mulf (F := Ideal)
    (Host.dotGeneral dot_S64x128_S1000000x128_S64x1000000_1_1_0_0_n_n none (Cert.Cosine.zn z) (xn x))
    (broadcastInDim S64x1000000 ![] bcast_S_S64x1000000 (Cert.Cosine.sc w))

section Generic

variable {F : FTy → Type} [FloatOps F]

/-- The entry function's 40 operations in order, each call of the norm helper replaced by the helper's five
    operations (square, zero, row sum, reshape to a column, square root) over that call's buffers. -/
abbrev ops : List (HloOp τ sig (Elt F)) :=
  [ nullary main_cst (fun i => FloatOps.ofBits .f32 (lit0 (S3.rowMajor i))),
    binary main_arg0 main_arg0 main_call0_v0 (mulf : (⟨S64x128, .f32⟩ : BufTy).Contents (Elt F) → (⟨S64x128, .f32⟩ : BufTy).Contents (Elt F) → (⟨S64x128, .f32⟩ : BufTy).Contents (Elt F)),
    nullary main_call0_cst (constant S_ .f32 0x00000000#32),
    binary main_call0_v0 main_call0_cst main_call0_v1 ((fun x v => Host.reduceAdd x v reducesTo_S64x128_S64_d1 h_S_) : (⟨S64x128, .f32⟩ : BufTy).Contents (Elt F) → (⟨S_, .f32⟩ : BufTy).Contents (Elt F) → (⟨S64, .f32⟩ : BufTy).Contents (Elt F)),
    unary main_call0_v1 main_call0_v2 (broadcastInDim S64x1 ![0] bcast_S64_S64x1_0 : (⟨S64, .f32⟩ : BufTy).Contents (Elt F) → (⟨S64x1, .f32⟩ : BufTy).Contents (Elt F)),
    unary main_call0_v2 main_v0 (Host.sqrt : (⟨S64x1, .f32⟩ : BufTy).Contents (Elt F) → (⟨S64x1, .f32⟩ : BufTy).Contents (Elt F)),
    nullary main_cst_0 (constant S_ .f32 0x322BCC77#32),
    unary main_cst_0 main_v1 (broadcastInDim S64x1 ![] bcast_S_S64x1 : (⟨S_, .f32⟩ : BufTy).Contents (Elt F) → (⟨S64x1, .f32⟩ : BufTy).Contents (Elt F)),
    binary main_v0 main_v1 main_v2 (maximumf : (⟨S64x1, .f32⟩ : BufTy).Contents (Elt F) → (⟨S64x1, .f32⟩ : BufTy).Contents (Elt F) → (⟨S64x1, .f32⟩ : BufTy).Contents (Elt F)),
    unary main_v2 main_v3 (broadcastInDim S64x128 ![0, 1] bcast_S64x1_S64x128_0_1 : (⟨S64x1, .f32⟩ : BufTy).Contents (Elt F) → (⟨S64x128, .f32⟩ : BufTy).Contents (Elt F)),
    binary main_arg0 main_v3 main_v4 (Host.divf : (⟨S64x128, .f32⟩ : BufTy).Contents (Elt F) → (⟨S64x128, .f32⟩ : BufTy).Contents (Elt F) → (⟨S64x128, .f32⟩ : BufTy).Contents (Elt F)),
    binary main_arg1 main_arg1 main_call1_v0 (mulf : (⟨S1000000x128, .f32⟩ : BufTy).Contents (Elt F) → (⟨S1000000x128, .f32⟩ : BufTy).Contents (Elt F) → (⟨S1000000x128, .f32⟩ : BufTy).Contents (Elt F)),
    nullary main_call1_cst (constant S_ .f32 0x00000000#32),
    binary main_call1_v0 main_call1_cst main_call1_v1 ((fun x v => Host.reduceAdd x v reducesTo_S1000000x128_S1000000_d1 h_S_) : (⟨S1000000x128, .f32⟩ : BufTy).Contents (Elt F) → (⟨S_, .f32⟩ : BufTy).Contents (Elt F) → (⟨S1000000, .f32⟩ : BufTy).Contents (Elt F)),
    unary main_call1_v1 main_call1_v2 (broadcastInDim S1000000x1 ![0] bcast_S1000000_S1000000x1_0 : (⟨S1000000, .f32⟩ : BufTy).Contents (Elt F) → (⟨S1000000x1, .f32⟩ : BufTy).Contents (Elt F)),
    unary main_call1_v2 main_v5 (Host.sqrt : (⟨S1000000x1, .f32⟩ : BufTy).Contents (Elt F) → (⟨S1000000x1, .f32⟩ : BufTy).Contents (Elt F)),
    nullary main_cst_1 (constant S_ .f32 0x322BCC77#32),
    unary main_cst_1 main_v6 (broadcastInDim S1000000x1 ![] bcast_S_S1000000x1 : (⟨S_, .f32⟩ : BufTy).Contents (Elt F) → (⟨S1000000x1, .f32⟩ : BufTy).Contents (Elt F)),
    binary main_v5 main_v6 main_v7 (maximumf : (⟨S1000000x1, .f32⟩ : BufTy).Contents (Elt F) → (⟨S1000000x1, .f32⟩ : BufTy).Contents (Elt F) → (⟨S1000000x1, .f32⟩ : BufTy).Contents (Elt F)),
    unary main_v7 main_v8 (broadcastInDim S1000000x128 ![0, 1] bcast_S1000000x1_S1000000x128_0_1 : (⟨S1000000x1, .f32⟩ : BufTy).Contents (Elt F) → (⟨S1000000x128, .f32⟩ : BufTy).Contents (Elt F)),
    binary main_arg1 main_v8 main_v9 (Host.divf : (⟨S1000000x128, .f32⟩ : BufTy).Contents (Elt F) → (⟨S1000000x128, .f32⟩ : BufTy).Contents (Elt F) → (⟨S1000000x128, .f32⟩ : BufTy).Contents (Elt F)),
    binary main_v4 main_v9 main_v10 ((fun l r => Host.dotGeneral dot_S64x128_S1000000x128_S64x1000000_1_1_0_0_n_n none l r) : (⟨S64x128, .f32⟩ : BufTy).Contents (Elt F) → (⟨S1000000x128, .f32⟩ : BufTy).Contents (Elt F) → (⟨S64x1000000, .f32⟩ : BufTy).Contents (Elt F)),
    nullary main_cst_2 (constant S_ .f32 0xFF800000#32),
    binary main_arg2 main_cst_2 main_v11 ((fun x v => Host.reduce (FloatOps.maximumf) x v reducesTo_S3_S_d0 h_S_) : (⟨S3, .f32⟩ : BufTy).Contents (Elt F) → (⟨S_, .f32⟩ : BufTy).Contents (Elt F) → (⟨S_, .f32⟩ : BufTy).Contents (Elt F)),
    nullary main_cst_3 (constant S_ .f32 0xFF800000#32),
    binary main_cst_3 main_v11 main_v12 (maximumf : (⟨S_, .f32⟩ : BufTy).Contents (Elt F) → (⟨S_, .f32⟩ : BufTy).Contents (Elt F) → (⟨S_, .f32⟩ : BufTy).Contents (Elt F)),
    unary main_v12 main_v13 (broadcastInDim S1 ![] bcast_S_S1 : (⟨S_, .f32⟩ : BufTy).Contents (Elt F) → (⟨S1, .f32⟩ : BufTy).Contents (Elt F)),
    unary main_v13 main_v14 (broadcastInDim S3 ![0] bcast_S1_S3_0 : (⟨S1, .f32⟩ : BufTy).Contents (Elt F) → (⟨S3, .f32⟩ : BufTy).Contents (Elt F)),
    binary main_arg2 main_v14 main_v15 (subf : (⟨S3, .f32⟩ : BufTy).Contents (Elt F) → (⟨S3, .f32⟩ : BufTy).Contents (Elt F) → (⟨S3, .f32⟩ : BufTy).Contents (Elt F)),
    unary main_v15 main_v16 (Host.exp : (⟨S3, .f32⟩ : BufTy).Contents (Elt F) → (⟨S3, .f32⟩ : BufTy).Contents (Elt F)),
    nullary main_cst_4 (constant S_ .f32 0x00000000#32),
    binary main_v16 main_cst_4 main_v17 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v17 main_v18 (broadcastInDim S1 ![] bcast_S_S1 : (⟨S_, .f32⟩ : BufTy).Contents (Elt F) → (⟨S1, .f32⟩ : BufTy).Contents (Elt F)),
    unary main_v18 main_v19 (broadcastInDim S3 ![0] bcast_S1_S3_0 : (⟨S1, .f32⟩ : BufTy).Contents (Elt F) → (⟨S3, .f32⟩ : BufTy).Contents (Elt F)),
    binary main_v16 main_v19 main_v20 (Host.divf : (⟨S3, .f32⟩ : BufTy).Contents (Elt F) → (⟨S3, .f32⟩ : BufTy).Contents (Elt F) → (⟨S3, .f32⟩ : BufTy).Contents (Elt F)),
    binary main_v20 main_cst main_v21 (Host.divf : (⟨S3, .f32⟩ : BufTy).Contents (Elt F) → (⟨S3, .f32⟩ : BufTy).Contents (Elt F) → (⟨S3, .f32⟩ : BufTy).Contents (Elt F)),
    nullary main_cst_5 (constant S_ .f32 0x00000000#32),
    binary main_v21 main_cst_5 main_v22 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v22 main_v23 (broadcastInDim S64x1000000 ![] bcast_S_S64x1000000 : (⟨S_, .f32⟩ : BufTy).Contents (Elt F) → (⟨S64x1000000, .f32⟩ : BufTy).Contents (Elt F)),
    binary main_v10 main_v23 main_v24 (mulf : (⟨S64x1000000, .f32⟩ : BufTy).Contents (Elt F) → (⟨S64x1000000, .f32⟩ : BufTy).Contents (Elt F) → (⟨S64x1000000, .f32⟩ : BufTy).Contents (Elt F)) ]

set_option maxRecDepth 1024 in
/-- The entry function is that straight line: the helper's definition unfolded at its two calls, both sides are one
    chain of steps once sequencing is reassociated. -/
theorem main_eq (c : Dev nD) : main (F := F) c = seq ops := by
  simp only [main, fn_norm.body, fn_norm_0.body, seq, bind_assoc, pure_bind]
  rfl

/-- The signature scopes no buffer … -/
theorem scopedRefs_eq : (Finset.univ.filter fun b : Ref sig .tc => b.isScoped) = ∅ := by decide
/-- … and no semaphore: the program is one of tensor values only. -/
theorem scopedSems_eq : (Finset.univ.filter fun sm : SemLoc sig => sm.isScoped .tc) = ∅ := by decide

/-- Every operation touches buffers of the device's own table only. -/
theorem ops_sub : (ops : List (HloOp τ sig (Elt F))).Forall fun op => op.bufs ⊆ tcRefs τ sig :=
  ⟨nullary_bufs_sub .., binary_bufs_sub .., nullary_bufs_sub .., binary_bufs_sub .., unary_bufs_sub .., unary_bufs_sub ..,
    nullary_bufs_sub .., unary_bufs_sub .., binary_bufs_sub .., unary_bufs_sub .., binary_bufs_sub ..,
    binary_bufs_sub .., nullary_bufs_sub .., binary_bufs_sub .., unary_bufs_sub .., unary_bufs_sub ..,
    nullary_bufs_sub .., unary_bufs_sub .., binary_bufs_sub .., unary_bufs_sub .., binary_bufs_sub ..,
    binary_bufs_sub ..,
    nullary_bufs_sub .., binary_bufs_sub .., nullary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., nullary_bufs_sub .., binary_bufs_sub .., unary_bufs_sub .., binary_bufs_sub ..⟩

end Generic

/-- The operations folded over any buffer contents leave, in the result buffer, `out` of the contents of the three
    argument buffers: each operation's result is read at its own buffer and passed over at every other. -/
theorem out_eq (V : Valuation τ sig (Elt Ideal)) :
    after (ops (F := Ideal)) V (main_v24 : DevRef τ sig)
      = out (V (main_arg0 : DevRef τ sig)) (V (main_arg1 : DevRef τ sig)) (V (main_arg2 : DevRef τ sig)) := by
  after_results_simp
  rfl

/-- No operation writes the first argument. -/
theorem arg0_eq (V : Valuation τ sig (Elt Ideal)) :
    after (ops (F := Ideal)) V (main_arg0 : DevRef τ sig) = V (main_arg0 : DevRef τ sig) := by
  after_results_simp

/-- No operation writes the second argument. -/
theorem arg1_eq (V : Valuation τ sig (Elt Ideal)) :
    after (ops (F := Ideal)) V (main_arg1 : DevRef τ sig) = V (main_arg1 : DevRef τ sig) := by
  after_results_simp

/-- No operation writes the third argument. -/
theorem arg2_eq (V : Valuation τ sig (Elt Ideal)) :
    after (ops (F := Ideal)) V (main_arg2 : DevRef τ sig) = V (main_arg2 : DevRef τ sig) := by
  after_results_simp

/-- On every device, from any memory with zero counters: every weakly fair execution of the reference terminates with
    the result buffer at `out` of the arguments' launch contents and the three arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v24).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.lean ====
/-
  The five claims of the certificate for the cosine-similarity scoring kernel.

  Both programs score 64 query rows against 1 000 000 bank rows of 128 columns and scale by one scalar built from three
  weights. Frames: each program runs to its end without a fault and leaves its three argument arrays as they were — the
  kernel, as printed and idealized, by running the tile body at each of its 62 grid points with the result window
  forgotten; the reference by its run with the result dropped. Preservation: the idealization's one rewrite names the
  kernel's clamp of a bank row's sum of squares; its value is δ², the square of the reference's clamp δ of a row's norm.
  Algebraic: over the extended reals the kernel's entry (b, n) is Σ_k (zn(b,k) · sc) · (x(n,k) · rsqrt (max s δ²)) and the
  reference's is (Σ_k zn(b,k) · (x(n,k) / max (√s) δ)) · sc, with s the sum of squares of bank row n. They are joined by the
  clamp identity rsqrt (max s δ²) = 1 / max (√s) δ and by pulling the real scalar sc out of the 128-term sum; the latter is
  where the precondition — every input entry is a real number — is used.
-/
import proofs.«109332_j17746804867779_2_alg».proof.Defs
import proofs.«109332_j17746804867779_2_alg».proof.Proof.Gen.Kernel
import proofs.«109332_j17746804867779_2_alg».proof.Proof.Gen.Kernel.Skeleton
import proofs.«109332_j17746804867779_2_alg».proof.Proof.Gen.Kernel.Launch
import proofs.«109332_j17746804867779_2_alg».proof.Proof.Gen.Kernel.Points
import proofs.«109332_j17746804867779_2_alg».proof.Proof.Gen.Kernel.Frame
import proofs.«109332_j17746804867779_2_alg».proof.Proof.Gen.KernelIdeal
import proofs.«109332_j17746804867779_2_alg».proof.Proof.Gen.KernelIdeal.Skeleton
import proofs.«109332_j17746804867779_2_alg».proof.Proof.Gen.KernelIdeal.Launch
import proofs.«109332_j17746804867779_2_alg».proof.Proof.Gen.KernelIdeal.Points
import proofs.«109332_j17746804867779_2_alg».proof.Proof.Gen.KernelIdeal.Frame
import proofs.«109332_j17746804867779_2_alg».proof.Proof.Gen.ReferenceIdeal
import proofs.«109332_j17746804867779_2_alg».proof.Proof.Gen.Pre_finite_inputs
import proofs.«109332_j17746804867779_2_alg».proof.Proof.KBody
import proofs.«109332_j17746804867779_2_alg».proof.Proof.KIBody
import proofs.«109332_j17746804867779_2_alg».proof.Proof.KIValue
import proofs.«109332_j17746804867779_2_alg».proof.Proof.Bridge
import proofs.«109332_j17746804867779_2_alg».proof.Proof.Named
import proofs.«109332_j17746804867779_2_alg».proof.Proof.Finite
import proofs.«109332_j17746804867779_2_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the tile body at every grid point, the result
    window forgotten. -/
theorem frame_k : Cert.frame_Kernel := fun m ρ _ => Cert.Kernel.Tile.frame m ρ

/-- The idealized kernel runs and leaves its arguments unchanged, likewise. -/
theorem frame_ki : Cert.frame_KernelIdeal := fun m ρ _ => Cert.KernelIdeal.Tile.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run m ρ)

/-- The idealization's one rewrite: the named clamp has the value the table gives it. -/
theorem preserves : Cert.preserves_Kernel_KernelIdeal := Cert.KernelIdeal.Payload.preserves

/-- What the reference's run leaves in its result is the term read at an entry by the specification: the same
    operations, the bank rows' normalisation written out. -/
theorem out_eq_spelled (z : FVec Ideal Cert.ReferenceIdeal.S64x128 .f32) (x : FVec Ideal Cert.ReferenceIdeal.S1000000x128 .f32)
    (w : FVec Ideal Cert.ReferenceIdeal.S3 .f32) :
    Cert.ReferenceIdeal.RefRun.out z x w = Cert.ReferenceIdeal.RefValue.spelled z x w := rfl

/-- Over the extended reals, from memories that agree on the arguments and satisfy the precondition, both programs
    run and end with equal results: the kernel's result function of the scaled queries and the bank, which for real
    inputs is the reference's result term. -/
theorem algebraic : Cert.algebraic_KernelIdeal_ReferenceIdeal := by
  intro m ρ m' ρ' hpre hagree
  refine ⟨fun c => Cert.KernelIdeal.TileValue.G (Cert.KernelIdeal.Gen.V m c Cert.KernelIdeal.main_v18)
      (m ((c.tc : Thread Cert.KernelIdeal.nD Cert.KernelIdeal.τ).loc Cert.KernelIdeal.main_arg1)),
    Cert.KernelIdeal.TileValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]
  obtain ⟨hz, hx, hw⟩ := Cert.Finite.real_of_fn _ _ _ (hpre c)
  exact (out_eq_spelled _ _ _).trans (Cert.Bridge.result_eq m c hz hx hw)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
